-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4x3x112x112 : Shape := ⟨5, ![256, 4, 3, 112, 112]⟩
abbrev S256x4x512 : Shape := ⟨3, ![256, 4, 512]⟩
abbrev S256x4x1 : Shape := ⟨3, ![256, 4, 1]⟩
abbrev S_ : Shape := ⟨0, ![]⟩

class Facts : Prop where
  bcast_S_S256x4x3x112x112 : S_.BroadcastsInDim S256x4x3x112x112 (![] : Fin 0 → Fin S256x4x3x112x112.rank)
  reducesTo_S256x4x3x112x112_S_d0_1_2_3_4 : S256x4x3x112x112.ReducesTo [0, 1, 2, 3, 4] S_
  h_S_ : 0 < S_.numel
  bcast_S_S256x4x512 : S_.BroadcastsInDim S256x4x512 (![] : Fin 0 → Fin S256x4x512.rank)
  reducesTo_S256x4x512_S_d0_1_2 : S256x4x512.ReducesTo [0, 1, 2] S_
  bcast_S_S256x4x1 : S_.BroadcastsInDim S256x4x1 (![] : Fin 0 → Fin S256x4x1.rank)
  reducesTo_S256x4x1_S_d0_1_2 : S256x4x1.ReducesTo [0, 1, 2] S_

variable [Facts]

def fn {F : FTy → Type} [FloatOps F] (main_arg0 : FVec F S256x4x3x112x112 .f32) (main_arg1 : FVec F S256x4x512 .f32) (main_arg2 : FVec F S256x4x1 .f32) : IVec S_ 1 :=
  let main_v0 : FVec F S256x4x3x112x112 .f32 := Host.absf main_arg0
  let main_cst : FVec F S_ .f32 := constant S_ .f32 0x7F800000#32
  let main_v1 : FVec F S256x4x3x112x112 .f32 := broadcastInDim S256x4x3x112x112 ![] bcast_S_S256x4x3x112x112 main_cst
  let main_v2 : IVec S256x4x3x112x112 1 := cmpf .olt main_v0 main_v1
  let main_c : IVec S_ 1 := constantI S_ 1 1#1
  let main_v3 : IVec S_ 1 := (fun x v => Host.reduce IntOp.andi x v reducesTo_S256x4x3x112x112_S_d0_1_2_3_4 h_S_) main_v2 main_c
  let main_v4 : FVec F S256x4x512 .f32 := Host.absf main_arg1
  let main_cst_0 : FVec F S_ .f32 := constant S_ .f32 0x7F800000#32
  let main_v5 : FVec F S256x4x512 .f32 := broadcastInDim S256x4x512 ![] bcast_S_S256x4x512 main_cst_0
  let main_v6 : IVec S256x4x512 1 := cmpf .olt main_v4 main_v5
  let main_c_1 : IVec S_ 1 := constantI S_ 1 1#1
  let main_v7 : IVec S_ 1 := (fun x v => Host.reduce IntOp.andi x v reducesTo_S256x4x512_S_d0_1_2 h_S_) main_v6 main_c_1
  let main_v8 : IVec S_ 1 := andi main_v3 main_v7
  let main_v9 : FVec F S256x4x1 .f32 := Host.absf main_arg2
  let main_cst_2 : FVec F S_ .f32 := constant S_ .f32 0x7F800000#32
  let main_v10 : FVec F S256x4x1 .f32 := broadcastInDim S256x4x1 ![] bcast_S_S256x4x1 main_cst_2
  let main_v11 : IVec S256x4x1 1 := cmpf .olt main_v9 main_v10
  let main_c_3 : IVec S_ 1 := constantI S_ 1 1#1
  let main_v12 : IVec S_ 1 := (fun x v => Host.reduce IntOp.andi x v reducesTo_S256x4x1_S_d0_1_2 h_S_) main_v11 main_c_3
  let main_v13 : IVec S_ 1 := andi main_v8 main_v12
  main_v13
-- ==== Kernel.lean ====
abbrev S256x4x3x112x112 : Shape := ⟨5, ![256, 4, 3, 112, 112]⟩
abbrev S256x4x512 : Shape := ⟨3, ![256, 4, 512]⟩
abbrev S256x4x1 : Shape := ⟨3, ![256, 4, 1]⟩
abbrev S256x4x294x128 : Shape := ⟨4, ![256, 4, 294, 128]⟩
abbrev S256x1 : Shape := ⟨2, ![256, 1]⟩
abbrev S16x4x294x128 : Shape := ⟨4, ![16, 4, 294, 128]⟩
abbrev S16x4x512 : Shape := ⟨3, ![16, 4, 512]⟩
abbrev S16x4x1 : Shape := ⟨3, ![16, 4, 1]⟩
abbrev S16x1 : Shape := ⟨2, ![16, 1]⟩
abbrev S16x1x1 : Shape := ⟨3, ![16, 1, 1]⟩
abbrev S16x1x294x128 : Shape := ⟨4, ![16, 1, 294, 128]⟩
abbrev S16x294x128 : Shape := ⟨3, ![16, 294, 128]⟩
abbrev S16x294 : Shape := ⟨2, ![16, 294]⟩
abbrev S16 : Shape := ⟨1, ![16]⟩
abbrev S16x1x512 : Shape := ⟨3, ![16, 1, 512]⟩
abbrev S16x512 : Shape := ⟨2, ![16, 512]⟩
abbrev S256 : Shape := ⟨1, ![256]⟩
abbrev S_ : Shape := ⟨0, ![]⟩

abbrev nBuf : Space → Nat
  | .hbm => 14
  | .vmem => 10
  | .smem => 0
  | _ => 0

abbrev bufTy : (tb : Table) → Fin (tcTables nBuf tb) → BufTy
  | .hbm, ⟨0, _⟩ => ⟨S256x4x3x112x112, .f32⟩
  | .hbm, ⟨1, _⟩ => ⟨S256x4x512, .f32⟩
  | .hbm, ⟨2, _⟩ => ⟨S256x4x1, .f32⟩
  | .hbm, ⟨3, _⟩ => ⟨S256x4x294x128, .f32⟩
  | .hbm, ⟨4, _⟩ => ⟨S256x1, .f32⟩
  | .hbm, ⟨5, _⟩ => ⟨S256x1, .f32⟩
  | .hbm, ⟨6, _⟩ => ⟨S256, .f32⟩
  | .hbm, ⟨7, _⟩ => ⟨S256, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S16x4x294x128, .f32⟩
  | .local _ .vmem, ⟨1, _⟩ => ⟨S16x4x294x128, .f32⟩
  | .local _ .vmem, ⟨2, _⟩ => ⟨S16x4x512, .f32⟩
  | .local _ .vmem, ⟨3, _⟩ => ⟨S16x4x512, .f32⟩
  | .local _ .vmem, ⟨4, _⟩ => ⟨S16x4x1, .f32⟩
  | .local _ .vmem, ⟨5, _⟩ => ⟨S16x4x1, .f32⟩
  | .local _ .vmem, ⟨6, _⟩ => ⟨S16x1, .f32⟩
  | .local _ .vmem, ⟨7, _⟩ => ⟨S16x1, .f32⟩
  | .local _ .vmem, ⟨8, _⟩ => ⟨S16x1, .f32⟩
  | .local _ .vmem, ⟨9, _⟩ => ⟨S16x1, .f32⟩
  | _, _ => ⟨S256x4x3x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x4x294x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x4x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256x4x3x112x112_S256x4x294x128 : S256x4x3x112x112.ShapeCasts S256x4x294x128
  inb_S16x4x1_S16x1x1_0_0_0 : ∀ a, (![0, 0, 0] : Fin 3 → Nat) a + S16x1x1.size a ≤ S16x4x1.size a
  h_S16x1x1 : 0 < S16x1x1.numel
  shapeCasts_S16x1x1_S16x1 : S16x1x1.ShapeCasts S16x1
  inb_S16x4x294x128_S16x1x294x128_0_1_0_0 : ∀ a, (![0, 1, 0, 0] : Fin 4 → Nat) a + S16x1x294x128.size a ≤ S16x4x294x128.size a
  h_S16x1x294x128 : 0 < S16x1x294x128.numel
  shapeCasts_S16x1x294x128_S16x294x128 : S16x1x294x128.ShapeCasts S16x294x128
  inb_S16x4x294x128_S16x1x294x128_0_0_0_0 : ∀ a, (![0, 0, 0, 0] : Fin 4 → Nat) a + S16x1x294x128.size a ≤ S16x4x294x128.size a
  reduces_S16x294x128_S16x294 : S16x294x128.Reduces [2] S16x294
  reduces_S16x294_S16 : S16x294.Reduces [1] S16
  shapeCasts_S16_S16x1 : S16.ShapeCasts S16x1
  natLt_1_32 : 1 < 32
  inb_S16x4x512_S16x1x512_0_0_0 : ∀ a, (![0, 0, 0] : Fin 3 → Nat) a + S16x1x512.size a ≤ S16x4x512.size a
  h_S16x1x512 : 0 < S16x1x512.numel
  shapeCasts_S16x1x512_S16x512 : S16x1x512.ShapeCasts S16x512
  inb_S16x4x512_S16x1x512_0_1_0 : ∀ a, (![0, 1, 0] : Fin 3 → Nat) a + S16x1x512.size a ≤ S16x4x512.size a
  reduces_S16x512_S16 : S16x512.Reduces [1] S16
  inb_S16x4x294x128_S16x1x294x128_0_2_0_0 : ∀ a, (![0, 2, 0, 0] : Fin 4 → Nat) a + S16x1x294x128.size a ≤ S16x4x294x128.size a
  inb_S16x4x512_S16x1x512_0_2_0 : ∀ a, (![0, 2, 0] : Fin 3 → Nat) a + S16x1x512.size a ≤ S16x4x512.size a
  inb_S16x4x294x128_S16x1x294x128_0_3_0_0 : ∀ a, (![0, 3, 0, 0] : Fin 4 → Nat) a + S16x1x294x128.size a ≤ S16x4x294x128.size a
  inb_S16x4x512_S16x1x512_0_3_0 : ∀ a, (![0, 3, 0] : Fin 3 → Nat) a + S16x1x512.size a ≤ S16x4x512.size a
  inb_S16x1_S16x1_0_0 : ∀ a, (![0, 0] : Fin 2 → Nat) a + S16x1.size a ≤ S16x1.size a
  h_S16x1 : 0 < S16x1.numel
  shapeCasts_S256x1_S256 : S256x1.ShapeCasts S256
  reducesTo_S256_S_d0 : S256.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x4x294x128.size a ≤ S256x4x294x128.size a
  hwx0_0 : ∀ i : grid0.Coords, EltTy.bits .f32 = 32 ∨ (Rect.block (s := S256x4x294x128) S16x4x294x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x4x512.size a ≤ S256x4x512.size a
  hwx0_1 : ∀ i : grid0.Coords, EltTy.bits .f32 = 32 ∨ (Rect.block (s := S256x4x512) S16x4x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x4x1.size a ≤ S256x4x1.size a
  hwx0_2 : ∀ i : grid0.Coords, EltTy.bits .f32 = 32 ∨ (Rect.block (s := S256x4x1) S16x4x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S256x1.size a
  hwx0_3 : ∀ i : grid0.Coords, EltTy.bits .f32 = 32 ∨ (Rect.block (s := S256x1) S16x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S256x1.size a
  hwx0_4 : ∀ i : grid0.Coords, EltTy.bits .f32 = 32 ∨ (Rect.block (s := S256x1) S16x1.size (cc0_transform_4 i) (hinb0_4 i)).WholeWords (EltTy.packing .f32)

variable [Facts₀]

abbrev win0_0 : Pipeline.Window sig grid0 :=
  Pipeline.Window.ofSpec (Memref.whole main_v0) S16x4x294x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x4x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x4x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S16x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S16x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x4x3x112x112 : Shape := ⟨5, ![256, 4, 3, 112, 112]⟩
abbrev S256x4x512 : Shape := ⟨3, ![256, 4, 512]⟩
abbrev S256x4x1 : Shape := ⟨3, ![256, 4, 1]⟩
abbrev S256x1x1 : Shape := ⟨3, ![256, 1, 1]⟩
abbrev S256 : Shape := ⟨1, ![256]⟩
abbrev S_ : Shape := ⟨0, ![]⟩
abbrev S256x3x3x112x112 : Shape := ⟨5, ![256, 3, 3, 112, 112]⟩
abbrev S256x3 : Shape := ⟨2, ![256, 3]⟩
abbrev S256x1x3x112x112 : Shape := ⟨5, ![256, 1, 3, 112, 112]⟩
abbrev S256x3x512 : Shape := ⟨3, ![256, 3, 512]⟩
abbrev S256x1 : Shape := ⟨2, ![256, 1]⟩

abbrev nBuf : Space → Nat
  | .hbm => 84
  | .vmem => 0
  | .smem => 0
  | _ => 0

abbrev bufTy : (tb : Table) → Fin (tcTables nBuf tb) → BufTy
  | .hbm, ⟨0, _⟩ => ⟨S256x4x3x112x112, .f32⟩
  | .hbm, ⟨1, _⟩ => ⟨S256x4x512, .f32⟩
  | .hbm, ⟨2, _⟩ => ⟨S256x4x1, .f32⟩
  | .hbm, ⟨3, _⟩ => ⟨S256x1x1, .f32⟩
  | .hbm, ⟨4, _⟩ => ⟨S256, .f32⟩
  | .hbm, ⟨5, _⟩ => ⟨S_, .f32⟩
  | .hbm, ⟨6, _⟩ => ⟨S256, .f32⟩
  | .hbm, ⟨7, _⟩ => ⟨S256, .i1⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S256x3x3x112x112, .f32⟩
  | .hbm, ⟨16, _⟩ => ⟨S256x3x3x112x112, .f32⟩
  | .hbm, ⟨17, _⟩ => ⟨S256x3x3x112x112, .f32⟩
  | .hbm, ⟨18, _⟩ => ⟨S256x3x3x112x112, .f32⟩
  | .hbm, ⟨19, _⟩ => ⟨S_, .f32⟩
  | .hbm, ⟨20, _⟩ => ⟨S256x3, .f32⟩
  | .hbm, ⟨21, _⟩ => ⟨S256x3, .f32⟩
  | .hbm, ⟨22, _⟩ => ⟨S_, .f32⟩
  | .hbm, ⟨23, _⟩ => ⟨S256x3, .f32⟩
  | .hbm, ⟨24, _⟩ => ⟨S256x3, .f32⟩
  | .hbm, ⟨25, _⟩ => ⟨S256x3x3x112x112, .f32⟩
  | .hbm, ⟨26, _⟩ => ⟨S256x1x3x112x112, .f32⟩
  | .hbm, ⟨27, _⟩ => ⟨S256x3x3x112x112, .f32⟩
  | .hbm, ⟨28, _⟩ => ⟨S256x3x3x112x112, .i1⟩
  | .hbm, ⟨29, _⟩ => ⟨S_, .i1⟩
  | .hbm, ⟨30, _⟩ => ⟨S256x3, .i1⟩
  | .hbm, ⟨31, _⟩ => ⟨S256x3x512, .f32⟩
  | .hbm, ⟨32, _⟩ => ⟨S256x3x512, .f32⟩
  | .hbm, ⟨33, _⟩ => ⟨S256x3x512, .f32⟩
  | .hbm, ⟨34, _⟩ => ⟨S_, .f32⟩
  | .hbm, ⟨35, _⟩ => ⟨S256x3, .f32⟩
  | .hbm, ⟨36, _⟩ => ⟨S256x3, .f32⟩
  | .hbm, ⟨37, _⟩ => ⟨S_, .f32⟩
  | .hbm, ⟨38, _⟩ => ⟨S256x3, .f32⟩
  | .hbm, ⟨39, _⟩ => ⟨S256x3, .f32⟩
  | .hbm, ⟨40, _⟩ => ⟨S256x3x512, .f32⟩
  | .hbm, ⟨41, _⟩ => ⟨S_, .f32⟩
  | .hbm, ⟨42, _⟩ => ⟨S256x3, .f32⟩
  | .hbm, ⟨43, _⟩ => ⟨S256x3, .f32⟩
  | .hbm, ⟨44, _⟩ => ⟨S_, .f32⟩
  | .hbm, ⟨45, _⟩ => ⟨S256x3, .f32⟩
  | .hbm, ⟨46, _⟩ => ⟨S256x3, .f32⟩
  | .hbm, ⟨47, _⟩ => ⟨S256x3x512, .f32⟩
  | .hbm, ⟨48, _⟩ => ⟨S_, .f32⟩
  | .hbm, ⟨49, _⟩ => ⟨S256x3, .f32⟩
  | .hbm, ⟨50, _⟩ => ⟨S256x3, .f32⟩
  | .hbm, ⟨51, _⟩ => ⟨S256x3, .f32⟩
  | .hbm, ⟨52, _⟩ => ⟨S_, .f32⟩
  | .hbm, ⟨53, _⟩ => ⟨S256x3, .f32⟩
  | .hbm, ⟨54, _⟩ => ⟨S256x3, .f32⟩
  | .hbm, ⟨55, _⟩ => ⟨S256x3, .f32⟩
  | .hbm, ⟨56, _⟩ => ⟨S_, .f32⟩
  | .hbm, ⟨57, _⟩ => ⟨S256x3, .f32⟩
  | .hbm, ⟨58, _⟩ => ⟨S256x3, .f32⟩
  | .hbm, ⟨59, _⟩ => ⟨S_, .f32⟩
  | .hbm, ⟨60, _⟩ => ⟨S256x3, .f32⟩
  | .hbm, ⟨61, _⟩ => ⟨S256x3, .f32⟩
  | .hbm, ⟨62, _⟩ => ⟨S256x1, .f32⟩
  | .hbm, ⟨63, _⟩ => ⟨S256x3, .f32⟩
  | .hbm, ⟨64, _⟩ => ⟨S256x3, .f32⟩
  | .hbm, ⟨65, _⟩ => ⟨S256x1, .i1⟩
  | .hbm, ⟨66, _⟩ => ⟨S256x3, .i1⟩
  | .hbm, ⟨67, _⟩ => ⟨S256x3, .i1⟩
  | .hbm, ⟨68, _⟩ => ⟨S_, .f32⟩
  | .hbm, ⟨69, _⟩ => ⟨S_, .f32⟩
  | .hbm, ⟨70, _⟩ => ⟨S256x3, .f32⟩
  | .hbm, ⟨71, _⟩ => ⟨S256x3, .f32⟩
  | .hbm, ⟨72, _⟩ => ⟨S_, .f32⟩
  | .hbm, ⟨73, _⟩ => ⟨S256, .f32⟩
  | .hbm, ⟨74, _⟩ => ⟨S_, .f32⟩
  | .hbm, ⟨75, _⟩ => ⟨S_, .f32⟩
  | .hbm, ⟨76, _⟩ => ⟨S256, .f32⟩
  | .hbm, ⟨77, _⟩ => ⟨S256, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S256x4x3x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_cst : Ref sig .tc := ⟨.hbm, 34, rfl⟩
abbrev main_call0_v1 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_call1_v0 : Ref sig .tc := ⟨.hbm, 40, rfl⟩
abbrev main_call1_cst : Ref sig .tc := ⟨.hbm, 41, rfl⟩
abbrev main_call1_v1 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_call2_v0 : Ref sig .tc := ⟨.hbm, 69, rfl⟩
abbrev main_call2_v1 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_cst_12 : Ref sig .tc := ⟨.hbm, 74, rfl⟩
abbrev main_call3_v0 : Ref sig .tc := ⟨.hbm, 75, rfl⟩
abbrev main_call3_v1 : Ref sig .tc := ⟨.hbm, 76, rfl⟩
abbrev main_v49 : Ref sig .tc := ⟨.hbm, 77, rfl⟩
abbrev main_cst_13 : Ref sig .tc := ⟨.hbm, 78, rfl⟩
abbrev main_v50 : Ref sig .tc := ⟨.hbm, 79, rfl⟩
abbrev main_cst_14 : Ref sig .tc := ⟨.hbm, 80, rfl⟩
abbrev main_v51 : Ref sig .tc := ⟨.hbm, 81, rfl⟩
abbrev main_cst_15 : Ref sig .tc := ⟨.hbm, 82, rfl⟩
abbrev main_v52 : Ref sig .tc := ⟨.hbm, 83, rfl⟩

abbrev nD : Nat := 1
abbrev τ : Topo := Topo.v7x

variable {F : FTy → Type} [FloatOps F]

class Facts₀ : Prop where
  slices_S256x4x1_S256x1x1_0_0_0 : S256x4x1.Slices ![0, 0, 0] S256x1x1
  shapeCasts_S256x1x1_S256 : S256x1x1.ShapeCasts S256
  bcast_S_S256 : S_.BroadcastsInDim S256 (![] : Fin 0 → Fin S256.rank)
  slices_S256x4x3x112x112_S256x3x3x112x112_0_1_0_0_0 : S256x4x3x112x112.Slices ![0, 1, 0, 0, 0] S256x3x3x112x112
  slices_S256x4x3x112x112_S256x3x3x112x112_0_0_0_0_0 : S256x4x3x112x112.Slices ![0, 0, 0, 0, 0] S256x3x3x112x112
  reducesTo_S256x3x3x112x112_S256x3_d2_3_4 : S256x3x3x112x112.ReducesTo [2, 3, 4] S256x3
  h_S_ : 0 < S_.numel
  bcast_S_S256x3 : S_.BroadcastsInDim S256x3 (![] : Fin 0 → Fin S256x3.rank)
  slices_S256x4x3x112x112_S256x1x3x112x112_0_0_0_0_0 : S256x4x3x112x112.Slices ![0, 0, 0, 0, 0] S256x1x3x112x112
  bcast_S256x1x3x112x112_S256x3x3x112x112_0_1_2_3_4 : S256x1x3x112x112.BroadcastsInDim S256x3x3x112x112 (![0, 1, 2, 3, 4] : Fin 5 → Fin S256x3x3x112x112.rank)
  slices_S256x4x512_S256x3x512_0_0_0 : S256x4x512.Slices ![0, 0, 0] S256x3x512
  slices_S256x4x512_S256x3x512_0_1_0 : S256x4x512.Slices ![0, 1, 0] S256x3x512
  reducesTo_S256x3x512_S256x3_d2 : S256x3x512.ReducesTo [2] S256x3
  bcast_S256_S256x1_0 : S256.BroadcastsInDim S256x1 (![0] : Fin 1 → Fin S256x1.rank)
  bcast_S256x1_S256x3_0_1 : S256x1.BroadcastsInDim S256x3 (![0, 1] : Fin 2 → Fin S256x3.rank)
  reducesTo_S256x3_S256_d1 : S256x3.ReducesTo [1] S256
  reducesTo_S256_S_d0 : S256.ReducesTo [0] S_

variable [Facts₀]

class Facts : Prop extends Facts₀ where

variable [Facts]
-- ==== Proof.Layout.lean ====
/-
  Reading the body's vector operations at one element.  A block of the image is a [16, 4, 294, 128] array (sample,
  frame, sublane row, lane), of the features [16, 4, 512], of the feature norms [16, 4, 1].  Every operation of the body
  is pointwise except the loads of one frame, the casts that drop or add an axis of extent one, and the sums over the
  lanes, over the sublane rows and over the feature axis; this file reads each of those at an index built from its
  coordinates, so that an element of anything the body stores becomes an expression in elements of the blocks.
-/
import proofs.«181546_j43542378447385_2_alg».proof.KernelIdeal
import Idealize.ShloMosaic.Lib.ValueIdx
import Idealize.ShloMosaic.Lib.Pipeline.Value
import Idealize.ShloMosaic.PureOps.Ideal.Laws

noncomputable section

namespace Cert.KernelIdeal.Layout

open Idealize.ShloMosaic Idealize.ShloMosaic.ValueIdx Cert.KernelIdeal

variable {α : Type} {Val : EltTy → Type} {e : EltTy}

/-! ## Loads of one frame -/

/-- Frame `j` of an image block, loaded as a [16, 1, 294, 128] vector, holds at (p, 0, s, l) the block's (p, j, s, l). -/
theorem ld_img (X : S16x4x294x128.Idx → Val e) (j : Nat) (hj : j < 4)
    (inb : ∀ a, (![0, j, 0, 0] : Fin 4 → Nat) a + S16x1x294x128.size a ≤ S16x4x294x128.size a)
    (p : Fin 16) (o : Fin 1) (s : Fin 294) (l : Fin 128) :
    View.ld X (Rect.unit (s := S16x4x294x128) ![0, j, 0, 0] S16x1x294x128.size inb) (ix4 p o s l) = X (ix4 p ⟨j, hj⟩ s l) := by
  show X _ = X _
  refine congrArg X (funext fun a => Fin.ext ?_)
  have ho : o.val = 0 := by omega
  match a with
  | ⟨0, _⟩ => show 0 + 1 * p.val = p.val; omega
  | ⟨1, _⟩ => show j + 1 * o.val = j; omega
  | ⟨2, _⟩ => show 0 + 1 * s.val = s.val; omega
  | ⟨3, _⟩ => show 0 + 1 * l.val = l.val; omega

/-- Frame `j` of a feature block, loaded as a [16, 1, 512] vector, holds at (p, 0, k) the block's (p, j, k). -/
theorem ld_feat (X : S16x4x512.Idx → Val e) (j : Nat) (hj : j < 4)
    (inb : ∀ a, (![0, j, 0] : Fin 3 → Nat) a + S16x1x512.size a ≤ S16x4x512.size a)
    (p : Fin 16) (o : Fin 1) (k : Fin 512) :
    View.ld X (Rect.unit (s := S16x4x512) ![0, j, 0] S16x1x512.size inb) (ix3 p o k) = X (ix3 p ⟨j, hj⟩ k) := by
  show X _ = X _
  refine congrArg X (funext fun a => Fin.ext ?_)
  have ho : o.val = 0 := by omega
  match a with
  | ⟨0, _⟩ => show 0 + 1 * p.val = p.val; omega
  | ⟨1, _⟩ => show j + 1 * o.val = j; omega
  | ⟨2, _⟩ => show 0 + 1 * k.val = k.val; omega

/-- The first frame's norm of a norm block, loaded as a [16, 1, 1] vector. -/
theorem ld_norm (X : S16x4x1.Idx → Val e)
    (inb : ∀ a, (![0, 0, 0] : Fin 3 → Nat) a + S16x1x1.size a ≤ S16x4x1.size a)
    (p : Fin 16) (o o' : Fin 1) :
    View.ld X (Rect.unit (s := S16x4x1) ![0, 0, 0] S16x1x1.size inb) (ix3 p o o') = X (ix3 p 0 0) := by
  show X _ = X _
  refine congrArg X (funext fun a => Fin.ext ?_)
  have ho : o.val = 0 := by omega
  have ho' : o'.val = 0 := by omega
  match a with
  | ⟨0, _⟩ => show 0 + 1 * p.val = p.val; omega
  | ⟨1, _⟩ => show 0 + 1 * o.val = 0; omega
  | ⟨2, _⟩ => show 0 + 1 * o'.val = 0; omega

/-- The same, frame by frame. -/
theorem ld_img0 (X : S16x4x294x128.Idx → Val e)
    (inb : ∀ a, (![0, 0, 0, 0] : Fin 4 → Nat) a + S16x1x294x128.size a ≤ S16x4x294x128.size a)
    (p : Fin 16) (o : Fin 1) (s : Fin 294) (l : Fin 128) :
    View.ld X (Rect.unit (s := S16x4x294x128) ![0, 0, 0, 0] S16x1x294x128.size inb) (ix4 p o s l) = X (ix4 p 0 s l) :=
  ld_img X 0 (by decide) inb p o s l
theorem ld_feat0 (X : S16x4x512.Idx → Val e)
    (inb : ∀ a, (![0, 0, 0] : Fin 3 → Nat) a + S16x1x512.size a ≤ S16x4x512.size a)
    (p : Fin 16) (o : Fin 1) (k : Fin 512) :
    View.ld X (Rect.unit (s := S16x4x512) ![0, 0, 0] S16x1x512.size inb) (ix3 p o k) = X (ix3 p 0 k) :=
  ld_feat X 0 (by decide) inb p o k
theorem ld_img1 (X : S16x4x294x128.Idx → Val e)
    (inb : ∀ a, (![0, 1, 0, 0] : Fin 4 → Nat) a + S16x1x294x128.size a ≤ S16x4x294x128.size a)
    (p : Fin 16) (o : Fin 1) (s : Fin 294) (l : Fin 128) :
    View.ld X (Rect.unit (s := S16x4x294x128) ![0, 1, 0, 0] S16x1x294x128.size inb) (ix4 p o s l) = X (ix4 p 1 s l) :=
  ld_img X 1 (by decide) inb p o s l
theorem ld_feat1 (X : S16x4x512.Idx → Val e)
    (inb : ∀ a, (![0, 1, 0] : Fin 3 → Nat) a + S16x1x512.size a ≤ S16x4x512.size a)
    (p : Fin 16) (o : Fin 1) (k : Fin 512) :
    View.ld X (Rect.unit (s := S16x4x512) ![0, 1, 0] S16x1x512.size inb) (ix3 p o k) = X (ix3 p 1 k) :=
  ld_feat X 1 (by decide) inb p o k
theorem ld_img2 (X : S16x4x294x128.Idx → Val e)
    (inb : ∀ a, (![0, 2, 0, 0] : Fin 4 → Nat) a + S16x1x294x128.size a ≤ S16x4x294x128.size a)
    (p : Fin 16) (o : Fin 1) (s : Fin 294) (l : Fin 128) :
    View.ld X (Rect.unit (s := S16x4x294x128) ![0, 2, 0, 0] S16x1x294x128.size inb) (ix4 p o s l) = X (ix4 p 2 s l) :=
  ld_img X 2 (by decide) inb p o s l
theorem ld_feat2 (X : S16x4x512.Idx → Val e)
    (inb : ∀ a, (![0, 2, 0] : Fin 3 → Nat) a + S16x1x512.size a ≤ S16x4x512.size a)
    (p : Fin 16) (o : Fin 1) (k : Fin 512) :
    View.ld X (Rect.unit (s := S16x4x512) ![0, 2, 0] S16x1x512.size inb) (ix3 p o k) = X (ix3 p 2 k) :=
  ld_feat X 2 (by decide) inb p o k
theorem ld_img3 (X : S16x4x294x128.Idx → Val e)
    (inb : ∀ a, (![0, 3, 0, 0] : Fin 4 → Nat) a + S16x1x294x128.size a ≤ S16x4x294x128.size a)
    (p : Fin 16) (o : Fin 1) (s : Fin 294) (l : Fin 128) :
    View.ld X (Rect.unit (s := S16x4x294x128) ![0, 3, 0, 0] S16x1x294x128.size inb) (ix4 p o s l) = X (ix4 p 3 s l) :=
  ld_img X 3 (by decide) inb p o s l
theorem ld_feat3 (X : S16x4x512.Idx → Val e)
    (inb : ∀ a, (![0, 3, 0] : Fin 3 → Nat) a + S16x1x512.size a ≤ S16x4x512.size a)
    (p : Fin 16) (o : Fin 1) (k : Fin 512) :
    View.ld X (Rect.unit (s := S16x4x512) ![0, 3, 0] S16x1x512.size inb) (ix3 p o k) = X (ix3 p 3 k) :=
  ld_feat X 3 (by decide) inb p o k

/-! ## Casts that drop or add an axis of extent one -/

theorem cast_img (v : S16x1x294x128.Idx → α) (h : S16x1x294x128.ShapeCasts S16x294x128) (p : Fin 16) (s : Fin 294) (l : Fin 128) :
    shapeCast S16x294x128 v h (ix3 p s l) = v (ix4 p 0 s l) :=
  shapeCast_apply v h _ _ (by
    rw [Shape.rowMajor_val_four, Shape.rowMajor_val_three]
    show ((p.val * 1 + 0) * 294 + s.val) * 128 + l.val = (p.val * 294 + s.val) * 128 + l.val
    omega)

theorem cast_feat (v : S16x1x512.Idx → α) (h : S16x1x512.ShapeCasts S16x512) (p : Fin 16) (k : Fin 512) :
    shapeCast S16x512 v h (ix2 p k) = v (ix3 p 0 k) :=
  shapeCast_apply v h _ _ (by
    rw [Shape.rowMajor_val_three, Shape.rowMajor_val_two]
    show (p.val * 1 + 0) * 512 + k.val = p.val * 512 + k.val
    omega)

theorem cast_norm (v : S16x1x1.Idx → α) (h : S16x1x1.ShapeCasts S16x1) (p : Fin 16) (q : Fin 1) :
    shapeCast S16x1 v h (ix2 p q) = v (ix3 p 0 0) :=
  shapeCast_apply v h _ _ (by
    rw [Shape.rowMajor_val_three, Shape.rowMajor_val_two]
    have hq : q.val = 0 := by omega
    show (p.val * 1 + 0) * 1 + 0 = p.val * 1 + q.val
    omega)

theorem cast_col (v : S16.Idx → α) (h : S16.ShapeCasts S16x1) (p : Fin 16) (q : Fin 1) :
    shapeCast S16x1 v h (ix2 p q) = v (ix1 p) :=
  shapeCast_apply v h _ _ (by
    rw [Shape.rowMajor_val_one, Shape.rowMajor_val_two]
    have hq : q.val = 0 := by omega
    show p.val = p.val * 1 + q.val
    omega)

/-! ## Sums over one axis

A `vector.multi_reduction <add>` is, by its definition, the ideal instance's `reduceAdd`; read at an index it is the sum
over the reduced axis's coordinate. -/

/-- The sum over the lanes. -/
theorem red_lanes (v : S16x294x128.Idx → EReal) (h : S16x294x128.Reduces [2] S16x294) (p : Fin 16) (s : Fin 294) :
    Ideal.reduceAdd h v (ix2 p s) = ∑ l : Fin 128, v (ix3 p s l) :=
  (Ideal.reduceAdd_single h v (ix2 p s)).trans
    (Finset.sum_congr rfl fun l _ => congrArg v (funext fun a => Fin.ext (by
      match a with | ⟨0, _⟩ => rfl | ⟨1, _⟩ => rfl | ⟨2, _⟩ => rfl)))

/-- The sum over the sublane rows. -/
theorem red_rows (v : S16x294.Idx → EReal) (h : S16x294.Reduces [1] S16) (p : Fin 16) :
    Ideal.reduceAdd h v (ix1 p) = ∑ s : Fin 294, v (ix2 p s) :=
  (Ideal.reduceAdd_single h v (ix1 p)).trans
    (Finset.sum_congr rfl fun s _ => congrArg v (funext fun a => Fin.ext (by
      match a with | ⟨0, _⟩ => rfl | ⟨1, _⟩ => rfl)))

/-- The sum over the feature axis. -/
theorem red_feat (v : S16x512.Idx → EReal) (h : S16x512.Reduces [1] S16) (p : Fin 16) :
    Ideal.reduceAdd h v (ix1 p) = ∑ k : Fin 512, v (ix2 p k) :=
  (Ideal.reduceAdd_single h v (ix1 p)).trans
    (Finset.sum_congr rfl fun k _ => congrArg v (funext fun a => Fin.ext (by
      match a with | ⟨0, _⟩ => rfl | ⟨1, _⟩ => rfl)))

end Cert.KernelIdeal.Layout

end
-- ==== Proof.Row.lean ====
/-
  One sample's penalty and weight as functions of that sample's rows, and the laws that join the two programs' ways of
  computing them.  A sample has four image frames, each a row of 37632 reals, four feature frames of 512 reals, and the
  first frame's feature norm `f`.  For consecutive frames j, j+1 the penalty adds, when `f` passes the gate and frame
  j+1 differs somewhere from frame 0, the hinge  max ((1 - cos) / (|a' - a| + tiny) - 0, 0) · w,  where cos is the
  cosine of the two feature frames with each length floored, and w = 1 / (exp f + tiny).
  The laws:  a sum over 294 rows of sums over 128 lanes is the sum over the 37632 positions (row · 128 + lane);  a sum of
  zero-or-one indicators is positive exactly when some indicator is one;  a fold of `or` over bits is one exactly when
  some bit is one;  three terms added one after the other onto zero are zero plus their sum.
-/
import Idealize.ShloMosaic.PureOps.Ideal.Laws
import Idealize.ShloMosaic.PureOps.Reduce
import Idealize.ShloMosaic.Lib.ValueIdx

noncomputable section

open scoped BigOperators

namespace Cert.Row

open Idealize.ShloMosaic

/-! ## "These two reals differ", as the float the body sums -/

/-- The comparison's bit, widened to a word and converted to a float: one where the two differ, zero where not. -/
def differ (x y : EReal) : EReal := FloatOps.sitofp (F := Ideal) .f32 ((Ideal.cmp .one x y).setWidth 32)

theorem differ_of_ne {x y : EReal} (h : x ≠ y) : differ x y = 1 := by
  simp [differ, Ideal.cmp, h, FloatOps.sitofp]

theorem differ_of_eq {x y : EReal} (h : x = y) : differ x y = 0 := by
  simp [differ, Ideal.cmp, h, FloatOps.sitofp]

theorem differ_nonneg (x y : EReal) : 0 ≤ differ x y := by
  by_cases h : x = y
  · rw [differ_of_eq h]
  · rw [differ_of_ne h]; exact zero_le_one

/-- A sum of such indicators is positive exactly when two of the compared reals differ. -/
theorem sum_differ_pos {ι : Type} [Fintype ι] (f g : ι → EReal) :
    (0 : EReal) < ∑ i, differ (f i) (g i) ↔ ∃ i, f i ≠ g i := by
  constructor
  · intro h
    by_contra hne
    have heq : ∀ i, f i = g i := fun i => Classical.byContradiction fun hi => hne ⟨i, hi⟩
    rw [Finset.sum_eq_zero (fun i _ => differ_of_eq (heq i))] at h
    exact lt_irrefl _ h
  · rintro ⟨i, hi⟩
    calc (0 : EReal) < 1 := zero_lt_one
      _ = differ (f i) (g i) := (differ_of_ne hi).symm
      _ ≤ ∑ i, differ (f i) (g i) :=
          Finset.single_le_sum (f := fun i => differ (f i) (g i)) (fun i _ => differ_nonneg _ _) (Finset.mem_univ i)

/-! ## A fold of `or` over bits -/

theorem foldl_ori_eq_one {ι : Type} (f : ι → BitVec 1) :
    ∀ (l : List ι) (init : BitVec 1), l.foldl (fun r n => IntOp.ori r (f n)) init = 1#1 ↔ init = 1#1 ∨ ∃ n ∈ l, f n = 1#1
  | [], init => by simp
  | a :: l, init => by
    rw [List.foldl_cons, foldl_ori_eq_one f l]
    have key : IntOp.ori init (f a) = 1#1 ↔ init = 1#1 ∨ f a = 1#1 := by
      rcases BitVec.eq_zero_or_eq_one init with h | h <;> rcases BitVec.eq_zero_or_eq_one (f a) with h' | h' <;>
        rw [h, h'] <;> decide
    rw [key]
    constructor
    · rintro ((h | h) | ⟨n, hn, h⟩)
      · exact Or.inl h
      · exact Or.inr ⟨a, List.mem_cons_self, h⟩
      · exact Or.inr ⟨n, List.mem_cons_of_mem _ hn, h⟩
    · rintro (h | ⟨n, hn, h⟩)
      · exact Or.inl (Or.inl h)
      · rcases List.mem_cons.1 hn with rfl | hn
        · exact Or.inl (Or.inr h)
        · exact Or.inr ⟨n, hn, h⟩

/-! ## Rows of lanes, flattened -/

/-- A sum over 294 rows of sums over 128 lanes is the sum over the 37632 positions, position k at row k / 128, lane k % 128. -/
theorem sum_rows_lanes {M : Type} [AddCommMonoid M] (f : Fin 294 → Fin 128 → M) :
    ∑ s, ∑ l, f s l = ∑ k : Fin 37632, f ⟨k.val / 128, by omega⟩ ⟨k.val % 128, by omega⟩ := by
  rw [← Fintype.sum_prod_type' (f := f)]
  refine Fintype.sum_equiv (finProdFinEquiv (m := 294) (n := 128)) _ _ fun x => ?_
  obtain ⟨s, l⟩ := x
  have hl : l.val < 128 := l.isLt
  congr 1 <;> refine Fin.ext ?_
  · show s.val = (l.val + 128 * s.val) / 128; omega
  · show l.val = (l.val + 128 * s.val) % 128; omega

/-! ## The row functions -/

/-- The gate: the first frame's feature norm is above (minus) zero. -/
def gate (f : EReal) : BitVec 1 := Ideal.cmp .ogt f (Ideal.ofBits .f32 0x80000000#32)

/-- The adaptive weight 1 / (exp f + tiny). -/
def weight (f : EReal) : EReal :=
  Ideal.div (Ideal.ofBits .f32 0x3F800000#32) (Ideal.exp f + Ideal.ofBits .f32 0x2EDBE6FF#32)

/-- The distance between two image frames, plus tiny. -/
def gap (a a' : Fin 37632 → EReal) : EReal :=
  Ideal.sqrt (∑ k, (a' k - a k) * (a' k - a k)) + Ideal.ofBits .f32 0x2EDBE6FF#32

open Classical in
/-- Frame `a'` differs somewhere from frame `a₀`. -/
def moved (a' a₀ : Fin 37632 → EReal) : BitVec 1 := if ∃ k, a' k ≠ a₀ k then 1#1 else 0#1

/-- A feature frame's length, floored. -/
def len (u : Fin 512 → EReal) : EReal := max (Ideal.sqrt (∑ k, u k * u k)) (Ideal.ofBits .f32 0x322BCC77#32)

/-- The hinge of one pair of frames from its weight, image distance, feature dot product and the two lengths. -/
def hinge (w d dot na nb : EReal) : EReal :=
  max (Ideal.div (Ideal.ofBits .f32 0x3F800000#32 - Ideal.div dot (na * nb)) d - Ideal.ofBits .f32 0x00000000#32)
    (Ideal.ofBits .f32 0x00000000#32) * w

/-- One pair's share of the penalty. -/
def pair (A : Fin 4 → Fin 37632 → EReal) (B : Fin 4 → Fin 512 → EReal) (f : EReal) (j j' : Fin 4) : EReal :=
  Scalar.select (IntOp.andi (gate f) (moved (A j') (A 0)))
    (hinge (weight f) (gap (A j) (A j')) (∑ k, B j k * B j' k) (len (B j)) (len (B j')))
    (Ideal.ofBits .f32 0x00000000#32)

/-- The sample's penalty: zero plus the three pairs' shares. -/
def pen (A : Fin 4 → Fin 37632 → EReal) (B : Fin 4 → Fin 512 → EReal) (f : EReal) : EReal :=
  Ideal.ofBits .f32 0x00000000#32 + ∑ j : Fin 3, pair A B f j.castSucc j.succ

/-- The sample's adaptive weight, gated. -/
def aw (f : EReal) : EReal := Scalar.select (gate f) (weight f) (Ideal.ofBits .f32 0x00000000#32)

/-! ## The rows of one sample, out of the three argument arrays -/

/-- The images [256, 4, 3, 112, 112], the features [256, 4, 512], the feature norms [256, 4, 1]. -/
abbrev SImg : Shape := ⟨5, ![256, 4, 3, 112, 112]⟩
abbrev SFeat : Shape := ⟨3, ![256, 4, 512]⟩
abbrev SNorm : Shape := ⟨3, ![256, 4, 1]⟩

open ValueIdx in
/-- Frame j of sample b as a row: position k is channel k / 12544, line k / 112 % 112, column k % 112. -/
def imgRows (x0 : SImg.Idx → EReal) (b : Fin 256) : Fin 4 → Fin 37632 → EReal :=
  fun j k => x0 (ix5 b j ⟨k.val / 12544, by omega⟩ ⟨k.val / 112 % 112, by omega⟩ ⟨k.val % 112, by omega⟩)

open ValueIdx in
/-- Feature frame j of sample b. -/
def featRows (x1 : SFeat.Idx → EReal) (b : Fin 256) : Fin 4 → Fin 512 → EReal := fun j k => x1 (ix3 b j k)

open ValueIdx in
/-- The first frame's feature norm of sample b. -/
def normOf (x2 : SNorm.Idx → EReal) (b : Fin 256) : EReal := x2 (ix3 b 0 0)

/-- Sample b's penalty, from the arrays. -/
def Pen (x0 : SImg.Idx → EReal) (x1 : SFeat.Idx → EReal) (x2 : SNorm.Idx → EReal) (b : Fin 256) : EReal :=
  pen (imgRows x0 b) (featRows x1 b) (normOf x2 b)

/-- Sample b's gated weight, from the norms. -/
def Aw (x2 : SNorm.Idx → EReal) (b : Fin 256) : EReal := aw (normOf x2 b)

/-- The first result from the per-sample penalties, as both programs' host code computes it: their sum over the samples,
    onto zero, divided by 256 and multiplied by one.  (Never opened: the two programs apply it to equal arguments.) -/
def meanOf (h : (⟨1, ![256]⟩ : Shape).ReducesTo [0] ⟨0, ![]⟩) (hu : 0 < (⟨0, ![]⟩ : Shape).numel)
    (p : (⟨1, ![256]⟩ : Shape).Idx → EReal) : (⟨0, ![]⟩ : Shape).Idx → EReal :=
  mulf (F := Ideal) (constant (F := Ideal) ⟨0, ![]⟩ .f32 0x3F800000#32)
    (Host.divf (F := Ideal) (Host.reduceAdd (F := Ideal) (φ := .f32) p (constant (F := Ideal) ⟨0, ![]⟩ .f32 0x00000000#32) h hu)
      (constant (F := Ideal) ⟨0, ![]⟩ .f32 0x43800000#32))

/-! ## The body's forms of the same -/

/-- The distance as the body sums it: lanes first, then rows. -/
theorem gap_rows (a a' : Fin 294 → Fin 128 → EReal) :
    Ideal.sqrt (∑ s, ∑ l, (a' s l - a s l) * (a' s l - a s l)) + Ideal.ofBits .f32 0x2EDBE6FF#32
      = gap (fun k => a ⟨k.val / 128, by omega⟩ ⟨k.val % 128, by omega⟩) (fun k => a' ⟨k.val / 128, by omega⟩ ⟨k.val % 128, by omega⟩) := by
  unfold gap
  rw [sum_rows_lanes (fun s l => (a' s l - a s l) * (a' s l - a s l))]

/-- "Differs somewhere" as the body decides it: the count of differing positions, summed lanes first, is above zero. -/
theorem moved_rows (a' a₀ : Fin 294 → Fin 128 → EReal) :
    Ideal.cmp .ogt (∑ s, ∑ l, differ (a' s l) (a₀ s l)) (Ideal.ofBits .f32 0x00000000#32)
      = moved (fun k => a' ⟨k.val / 128, by omega⟩ ⟨k.val % 128, by omega⟩) (fun k => a₀ ⟨k.val / 128, by omega⟩ ⟨k.val % 128, by omega⟩) := by
  unfold moved
  rw [sum_rows_lanes (fun s l => differ (a' s l) (a₀ s l)), Ideal.ofBits_zero_f32]
  by_cases h : ∃ k : Fin 37632, a' ⟨k.val / 128, by omega⟩ ⟨k.val % 128, by omega⟩ ≠ a₀ ⟨k.val / 128, by omega⟩ ⟨k.val % 128, by omega⟩
  · rw [if_pos h]
    have := (sum_differ_pos (fun k : Fin 37632 => a' ⟨k.val / 128, by omega⟩ ⟨k.val % 128, by omega⟩) (fun k => a₀ ⟨k.val / 128, by omega⟩ ⟨k.val % 128, by omega⟩)).2 h
    simp [Ideal.cmp, this]
  · rw [if_neg h]
    have := mt (sum_differ_pos (fun k : Fin 37632 => a' ⟨k.val / 128, by omega⟩ ⟨k.val % 128, by omega⟩) (fun k => a₀ ⟨k.val / 128, by omega⟩ ⟨k.val % 128, by omega⟩)).1 h
    simp [Ideal.cmp, this]

/-- Three shares added one after the other onto zero. -/
theorem pen_steps (A : Fin 4 → Fin 37632 → EReal) (B : Fin 4 → Fin 512 → EReal) (f : EReal) :
    Ideal.ofBits .f32 0x00000000#32 + pair A B f 0 1 + pair A B f 1 2 + pair A B f 2 3 = pen A B f := by
  unfold pen
  rw [Fin.sum_univ_three]
  simp only [add_assoc]
  rfl

end Cert.Row

end
-- ==== Proof.Body.lean ====
/-
  Every value the body stores, read at one sample of the block.  The body's arithmetic is printed as nineteen pure terms
  (the values carried from one stretch of the body to the next); each is read here at row p of the block as an expression
  in the elements of what it is computed from: the gate and the weight from the sample's norm, each image distance and
  each count of differing positions as sums over 294 rows of 128 lanes, each pair's share of the penalty from the
  feature frames' sums over 512 features, the running penalty as the previous one plus the share.
-/
import proofs.«181546_j43542378447385_2_alg».proof.Proof.Gen.KernelIdeal.Skeleton
import proofs.«181546_j43542378447385_2_alg».proof.Proof.Layout
import proofs.«181546_j43542378447385_2_alg».proof.Proof.Row

noncomputable section

namespace Cert.KernelIdeal.Body

open Idealize.ShloMosaic Idealize.ShloMosaic.ValueIdx Cert.KernelIdeal Cert.KernelIdeal.Gen Cert.KernelIdeal.Layout Cert

variable [Cert.KernelIdeal.Facts]

/-- The gated weight the body stores as the second result. -/
theorem pay1_apply (v3 : IVec S16x1 1) (v8 : FVec Ideal S16x1 .f32) (p : Fin 16) (q : Fin 1) :
    k0_pay1 (F := Ideal) v3 v8 (ix2 p q) = Scalar.select (v3 (ix2 p q)) (v8 (ix2 p q)) (Ideal.ofBits .f32 0x00000000#32) := by
  unfold k0_pay1
  simp only [multiReduction, Ideal.reduceAdd_def, addf_apply, mulf_apply, subf_apply, divf_apply, maximumf_apply, broadcast_apply, cmpf_apply, extui_apply, sitofp_apply, select_apply, Idealize.ShloMosaic.sqrt, Idealize.ShloMosaic.exp, Idealize.ShloMosaic.andi, cast_col, cast_norm, cast_img, cast_feat, red_rows, red_lanes, red_feat, Scalar.ofBits, Ideal.ofBits_def, Ideal.sqrt_def, Ideal.exp_def, Ideal.divf_def, Ideal.maximumf_def, Ideal.cmpf_def, Row.differ, Row.hinge, Row.len, Row.gate, Row.weight]

/-- The gate of sample p. -/
theorem pay3_apply (v0 : Vec Ideal S16x1x1 .f32) (p : Fin 16) (q : Fin 1) :
    k0_pay3 (F := Ideal) v0 (ix2 p q) = Row.gate (v0 (ix3 p 0 0)) := by
  unfold k0_pay3 k0_pay2
  simp only [multiReduction, Ideal.reduceAdd_def, addf_apply, mulf_apply, subf_apply, divf_apply, maximumf_apply, broadcast_apply, cmpf_apply, extui_apply, sitofp_apply, select_apply, Idealize.ShloMosaic.sqrt, Idealize.ShloMosaic.exp, Idealize.ShloMosaic.andi, cast_col, cast_norm, cast_img, cast_feat, red_rows, red_lanes, red_feat, Scalar.ofBits, Ideal.ofBits_def, Ideal.sqrt_def, Ideal.exp_def, Ideal.divf_def, Ideal.maximumf_def, Ideal.cmpf_def, Row.differ, Row.hinge, Row.len, Row.gate, Row.weight]

/-- The weight of sample p. -/
theorem pay4_apply (v0 : Vec Ideal S16x1x1 .f32) (p : Fin 16) (q : Fin 1) :
    k0_pay4 (F := Ideal) v0 (ix2 p q) = Row.weight (v0 (ix3 p 0 0)) := by
  unfold k0_pay4 k0_pay2
  simp only [multiReduction, Ideal.reduceAdd_def, addf_apply, mulf_apply, subf_apply, divf_apply, maximumf_apply, broadcast_apply, cmpf_apply, extui_apply, sitofp_apply, select_apply, Idealize.ShloMosaic.sqrt, Idealize.ShloMosaic.exp, Idealize.ShloMosaic.andi, cast_col, cast_norm, cast_img, cast_feat, red_rows, red_lanes, red_feat, Scalar.ofBits, Ideal.ofBits_def, Ideal.sqrt_def, Ideal.exp_def, Ideal.divf_def, Ideal.maximumf_def, Ideal.cmpf_def, Row.differ, Row.hinge, Row.len, Row.gate, Row.weight]

/-- The penalty starts at zero. -/
theorem pay5_apply (p : Fin 16) (q : Fin 1) : k0_pay5 (F := Ideal) (ix2 p q) = (Ideal.ofBits .f32 0x00000000#32) := rfl

/-- The distance between two loaded frames of sample p, plus tiny. -/
theorem pay6_apply (v10 v12 : Vec Ideal S16x1x294x128 .f32) (p : Fin 16) (q : Fin 1) :
    k0_pay6 (F := Ideal) v10 v12 (ix2 p q)
      = Ideal.sqrt (∑ s : Fin 294, ∑ l : Fin 128, (v10 (ix4 p 0 s l) - v12 (ix4 p 0 s l)) * (v10 (ix4 p 0 s l) - v12 (ix4 p 0 s l)))
          + Ideal.ofBits .f32 0x2EDBE6FF#32 := by
  unfold k0_pay6
  simp only [multiReduction, Ideal.reduceAdd_def, addf_apply, mulf_apply, subf_apply, divf_apply, maximumf_apply, broadcast_apply, cmpf_apply, extui_apply, sitofp_apply, select_apply, Idealize.ShloMosaic.sqrt, Idealize.ShloMosaic.exp, Idealize.ShloMosaic.andi, cast_col, cast_norm, cast_img, cast_feat, red_rows, red_lanes, red_feat, Scalar.ofBits, Ideal.ofBits_def, Ideal.sqrt_def, Ideal.exp_def, Ideal.divf_def, Ideal.maximumf_def, Ideal.cmpf_def, Row.differ, Row.hinge, Row.len, Row.gate, Row.weight]

/-- The count of positions at which two loaded frames of sample p differ. -/
theorem pay7_apply (v22 v24 : Vec Ideal S16x1x294x128 .f32) (p : Fin 16) :
    k0_pay7 (F := Ideal) v22 v24 (ix1 p) = ∑ s : Fin 294, ∑ l : Fin 128, Row.differ (v22 (ix4 p 0 s l)) (v24 (ix4 p 0 s l)) := by
  unfold k0_pay7
  simp only [multiReduction, Ideal.reduceAdd_def, addf_apply, mulf_apply, subf_apply, divf_apply, maximumf_apply, broadcast_apply, cmpf_apply, extui_apply, sitofp_apply, select_apply, Idealize.ShloMosaic.sqrt, Idealize.ShloMosaic.exp, Idealize.ShloMosaic.andi, cast_col, cast_norm, cast_img, cast_feat, red_rows, red_lanes, red_feat, Scalar.ofBits, Ideal.ofBits_def, Ideal.sqrt_def, Ideal.exp_def, Ideal.divf_def, Ideal.maximumf_def, Ideal.cmpf_def, Row.differ, Row.hinge, Row.len, Row.gate, Row.weight]

/-- The penalty after the first pair. -/
theorem pay8_apply (v3 : IVec S16x1 1) (v8 v9 v21 : FVec Ideal S16x1 .f32) (v30 : FVec Ideal S16 .f32)
    (v34 v36 : Vec Ideal S16x1x512 .f32) (p : Fin 16) (q : Fin 1) :
    k0_pay8 (F := Ideal) v3 v8 v9 v21 v30 v34 v36 (ix2 p q)
      = v9 (ix2 p q) + Scalar.select (IntOp.andi (v3 (ix2 p q)) (Ideal.cmp .ogt (v30 (ix1 p)) (Ideal.ofBits .f32 0x00000000#32)))
          (Row.hinge (v8 (ix2 p q)) (v21 (ix2 p q)) (∑ k : Fin 512, v34 (ix3 p 0 k) * v36 (ix3 p 0 k))
            (Row.len fun k => v34 (ix3 p 0 k)) (Row.len fun k => v36 (ix3 p 0 k))) (Ideal.ofBits .f32 0x00000000#32) := by
  unfold k0_pay8
  simp only [multiReduction, Ideal.reduceAdd_def, addf_apply, mulf_apply, subf_apply, divf_apply, maximumf_apply, broadcast_apply, cmpf_apply, extui_apply, sitofp_apply, select_apply, Idealize.ShloMosaic.sqrt, Idealize.ShloMosaic.exp, Idealize.ShloMosaic.andi, cast_col, cast_norm, cast_img, cast_feat, red_rows, red_lanes, red_feat, Scalar.ofBits, Ideal.ofBits_def, Ideal.sqrt_def, Ideal.exp_def, Ideal.divf_def, Ideal.maximumf_def, Ideal.cmpf_def, Row.differ, Row.hinge, Row.len, Row.gate, Row.weight]

/-- A loaded frame with its unit axis dropped. -/
theorem pay9_apply (v67 : Vec Ideal S16x1x294x128 .f32) (p : Fin 16) (s : Fin 294) (l : Fin 128) :
    k0_pay9 (F := Ideal) v67 (ix3 p s l) = v67 (ix4 p 0 s l) := by
  unfold k0_pay9
  simp only [multiReduction, Ideal.reduceAdd_def, addf_apply, mulf_apply, subf_apply, divf_apply, maximumf_apply, broadcast_apply, cmpf_apply, extui_apply, sitofp_apply, select_apply, Idealize.ShloMosaic.sqrt, Idealize.ShloMosaic.exp, Idealize.ShloMosaic.andi, cast_col, cast_norm, cast_img, cast_feat, red_rows, red_lanes, red_feat, Scalar.ofBits, Ideal.ofBits_def, Ideal.sqrt_def, Ideal.exp_def, Ideal.divf_def, Ideal.maximumf_def, Ideal.cmpf_def, Row.differ, Row.hinge, Row.len, Row.gate, Row.weight]

/-- The second pair's distance. -/
theorem pay10_apply (v68 : FVec Ideal S16x294x128 .f32) (v69 : Vec Ideal S16x1x294x128 .f32) (p : Fin 16) (q : Fin 1) :
    k0_pay10 (F := Ideal) v68 v69 (ix2 p q)
      = Ideal.sqrt (∑ s : Fin 294, ∑ l : Fin 128, (v68 (ix3 p s l) - v69 (ix4 p 0 s l)) * (v68 (ix3 p s l) - v69 (ix4 p 0 s l)))
          + Ideal.ofBits .f32 0x2EDBE6FF#32 := by
  unfold k0_pay10
  simp only [multiReduction, Ideal.reduceAdd_def, addf_apply, mulf_apply, subf_apply, divf_apply, maximumf_apply, broadcast_apply, cmpf_apply, extui_apply, sitofp_apply, select_apply, Idealize.ShloMosaic.sqrt, Idealize.ShloMosaic.exp, Idealize.ShloMosaic.andi, cast_col, cast_norm, cast_img, cast_feat, red_rows, red_lanes, red_feat, Scalar.ofBits, Ideal.ofBits_def, Ideal.sqrt_def, Ideal.exp_def, Ideal.divf_def, Ideal.maximumf_def, Ideal.cmpf_def, Row.differ, Row.hinge, Row.len, Row.gate, Row.weight]

/-- The second pair's "differs from frame 0". -/
theorem pay11_apply (v79 v81 : Vec Ideal S16x1x294x128 .f32) (p : Fin 16) (q : Fin 1) :
    k0_pay11 (F := Ideal) v79 v81 (ix2 p q)
      = Ideal.cmp .ogt (∑ s : Fin 294, ∑ l : Fin 128, Row.differ (v79 (ix4 p 0 s l)) (v81 (ix4 p 0 s l))) (Ideal.ofBits .f32 0x00000000#32) := by
  unfold k0_pay11
  simp only [multiReduction, Ideal.reduceAdd_def, addf_apply, mulf_apply, subf_apply, divf_apply, maximumf_apply, broadcast_apply, cmpf_apply, extui_apply, sitofp_apply, select_apply, Idealize.ShloMosaic.sqrt, Idealize.ShloMosaic.exp, Idealize.ShloMosaic.andi, cast_col, cast_norm, cast_img, cast_feat, red_rows, red_lanes, red_feat, Scalar.ofBits, Ideal.ofBits_def, Ideal.sqrt_def, Ideal.exp_def, Ideal.divf_def, Ideal.maximumf_def, Ideal.cmpf_def, Row.differ, Row.hinge, Row.len, Row.gate, Row.weight]

/-- A loaded feature frame with its unit axis dropped. -/
theorem pay12_apply (v91 : Vec Ideal S16x1x512 .f32) (p : Fin 16) (k : Fin 512) :
    k0_pay12 (F := Ideal) v91 (ix2 p k) = v91 (ix3 p 0 k) := by
  unfold k0_pay12
  simp only [multiReduction, Ideal.reduceAdd_def, addf_apply, mulf_apply, subf_apply, divf_apply, maximumf_apply, broadcast_apply, cmpf_apply, extui_apply, sitofp_apply, select_apply, Idealize.ShloMosaic.sqrt, Idealize.ShloMosaic.exp, Idealize.ShloMosaic.andi, cast_col, cast_norm, cast_img, cast_feat, red_rows, red_lanes, red_feat, Scalar.ofBits, Ideal.ofBits_def, Ideal.sqrt_def, Ideal.exp_def, Ideal.divf_def, Ideal.maximumf_def, Ideal.cmpf_def, Row.differ, Row.hinge, Row.len, Row.gate, Row.weight]

theorem pay13_apply (v93 : Vec Ideal S16x1x512 .f32) (p : Fin 16) (k : Fin 512) :
    k0_pay13 (F := Ideal) v93 (ix2 p k) = v93 (ix3 p 0 k) := by
  unfold k0_pay13
  simp only [multiReduction, Ideal.reduceAdd_def, addf_apply, mulf_apply, subf_apply, divf_apply, maximumf_apply, broadcast_apply, cmpf_apply, extui_apply, sitofp_apply, select_apply, Idealize.ShloMosaic.sqrt, Idealize.ShloMosaic.exp, Idealize.ShloMosaic.andi, cast_col, cast_norm, cast_img, cast_feat, red_rows, red_lanes, red_feat, Scalar.ofBits, Ideal.ofBits_def, Ideal.sqrt_def, Ideal.exp_def, Ideal.divf_def, Ideal.maximumf_def, Ideal.cmpf_def, Row.differ, Row.hinge, Row.len, Row.gate, Row.weight]

/-- A feature frame's floored length. -/
theorem pay14_apply (v91 : Vec Ideal S16x1x512 .f32) (p : Fin 16) (q : Fin 1) :
    k0_pay14 (F := Ideal) v91 (ix2 p q) = Row.len fun k => v91 (ix3 p 0 k) := by
  unfold k0_pay14 k0_pay12
  simp only [multiReduction, Ideal.reduceAdd_def, addf_apply, mulf_apply, subf_apply, divf_apply, maximumf_apply, broadcast_apply, cmpf_apply, extui_apply, sitofp_apply, select_apply, Idealize.ShloMosaic.sqrt, Idealize.ShloMosaic.exp, Idealize.ShloMosaic.andi, cast_col, cast_norm, cast_img, cast_feat, red_rows, red_lanes, red_feat, Scalar.ofBits, Ideal.ofBits_def, Ideal.sqrt_def, Ideal.exp_def, Ideal.divf_def, Ideal.maximumf_def, Ideal.cmpf_def, Row.differ, Row.hinge, Row.len, Row.gate, Row.weight]

/-- A feature frame's sum of squares. -/
theorem pay15_apply (v93 : Vec Ideal S16x1x512 .f32) (p : Fin 16) (q : Fin 1) :
    k0_pay15 (F := Ideal) v93 (ix2 p q) = ∑ k : Fin 512, v93 (ix3 p 0 k) * v93 (ix3 p 0 k) := by
  unfold k0_pay15 k0_pay13
  simp only [multiReduction, Ideal.reduceAdd_def, addf_apply, mulf_apply, subf_apply, divf_apply, maximumf_apply, broadcast_apply, cmpf_apply, extui_apply, sitofp_apply, select_apply, Idealize.ShloMosaic.sqrt, Idealize.ShloMosaic.exp, Idealize.ShloMosaic.andi, cast_col, cast_norm, cast_img, cast_feat, red_rows, red_lanes, red_feat, Scalar.ofBits, Ideal.ofBits_def, Ideal.sqrt_def, Ideal.exp_def, Ideal.divf_def, Ideal.maximumf_def, Ideal.cmpf_def, Row.differ, Row.hinge, Row.len, Row.gate, Row.weight]

/-- The penalty after the second pair. -/
theorem pay16_apply (v3 : IVec S16x1 1) (v8 v66 v78 : FVec Ideal S16x1 .f32) (v90 : IVec S16x1 1)
    (v92 v94 : FVec Ideal S16x512 .f32) (v100 v103 : FVec Ideal S16x1 .f32) (p : Fin 16) (q : Fin 1) :
    k0_pay16 (F := Ideal) v3 v8 v66 v78 v90 v92 v94 v100 v103 (ix2 p q)
      = v66 (ix2 p q) + Scalar.select (IntOp.andi (v3 (ix2 p q)) (v90 (ix2 p q)))
          (Row.hinge (v8 (ix2 p q)) (v78 (ix2 p q)) (∑ k : Fin 512, v92 (ix2 p k) * v94 (ix2 p k))
            (v100 (ix2 p q)) (max (Ideal.sqrt (v103 (ix2 p q))) (Ideal.ofBits .f32 0x322BCC77#32))) (Ideal.ofBits .f32 0x00000000#32) := by
  unfold k0_pay16
  simp only [multiReduction, Ideal.reduceAdd_def, addf_apply, mulf_apply, subf_apply, divf_apply, maximumf_apply, broadcast_apply, cmpf_apply, extui_apply, sitofp_apply, select_apply, Idealize.ShloMosaic.sqrt, Idealize.ShloMosaic.exp, Idealize.ShloMosaic.andi, cast_col, cast_norm, cast_img, cast_feat, red_rows, red_lanes, red_feat, Scalar.ofBits, Ideal.ofBits_def, Ideal.sqrt_def, Ideal.exp_def, Ideal.divf_def, Ideal.maximumf_def, Ideal.cmpf_def, Row.differ, Row.hinge, Row.len, Row.gate, Row.weight]

/-- The third pair's distance. -/
theorem pay17_apply (v124 v126 : Vec Ideal S16x1x294x128 .f32) (p : Fin 16) (q : Fin 1) :
    k0_pay17 (F := Ideal) v124 v126 (ix2 p q)
      = Ideal.sqrt (∑ s : Fin 294, ∑ l : Fin 128, (v124 (ix4 p 0 s l) - v126 (ix4 p 0 s l)) * (v124 (ix4 p 0 s l) - v126 (ix4 p 0 s l)))
          + Ideal.ofBits .f32 0x2EDBE6FF#32 := by
  unfold k0_pay17
  simp only [multiReduction, Ideal.reduceAdd_def, addf_apply, mulf_apply, subf_apply, divf_apply, maximumf_apply, broadcast_apply, cmpf_apply, extui_apply, sitofp_apply, select_apply, Idealize.ShloMosaic.sqrt, Idealize.ShloMosaic.exp, Idealize.ShloMosaic.andi, cast_col, cast_norm, cast_img, cast_feat, red_rows, red_lanes, red_feat, Scalar.ofBits, Ideal.ofBits_def, Ideal.sqrt_def, Ideal.exp_def, Ideal.divf_def, Ideal.maximumf_def, Ideal.cmpf_def, Row.differ, Row.hinge, Row.len, Row.gate, Row.weight]

theorem pay18_apply (v136 : Vec Ideal S16x1x294x128 .f32) (p : Fin 16) (s : Fin 294) (l : Fin 128) :
    k0_pay18 (F := Ideal) v136 (ix3 p s l) = v136 (ix4 p 0 s l) := by
  unfold k0_pay18
  simp only [multiReduction, Ideal.reduceAdd_def, addf_apply, mulf_apply, subf_apply, divf_apply, maximumf_apply, broadcast_apply, cmpf_apply, extui_apply, sitofp_apply, select_apply, Idealize.ShloMosaic.sqrt, Idealize.ShloMosaic.exp, Idealize.ShloMosaic.andi, cast_col, cast_norm, cast_img, cast_feat, red_rows, red_lanes, red_feat, Scalar.ofBits, Ideal.ofBits_def, Ideal.sqrt_def, Ideal.exp_def, Ideal.divf_def, Ideal.maximumf_def, Ideal.cmpf_def, Row.differ, Row.hinge, Row.len, Row.gate, Row.weight]

/-- The penalty after the third pair: what the body stores as the first result. -/
theorem pay19_apply (v3 : IVec S16x1 1) (v8 v123 v135 : FVec Ideal S16x1 .f32) (v137 : FVec Ideal S16x294x128 .f32)
    (v138 : Vec Ideal S16x1x294x128 .f32) (v148 v150 : Vec Ideal S16x1x512 .f32) (p : Fin 16) (q : Fin 1) :
    k0_pay19 (F := Ideal) v3 v8 v123 v135 v137 v138 v148 v150 (ix2 p q)
      = v123 (ix2 p q) + Scalar.select (IntOp.andi (v3 (ix2 p q))
            (Ideal.cmp .ogt (∑ s : Fin 294, ∑ l : Fin 128, Row.differ (v137 (ix3 p s l)) (v138 (ix4 p 0 s l))) (Ideal.ofBits .f32 0x00000000#32)))
          (Row.hinge (v8 (ix2 p q)) (v135 (ix2 p q)) (∑ k : Fin 512, v148 (ix3 p 0 k) * v150 (ix3 p 0 k))
            (Row.len fun k => v148 (ix3 p 0 k)) (Row.len fun k => v150 (ix3 p 0 k))) (Ideal.ofBits .f32 0x00000000#32) := by
  unfold k0_pay19
  simp only [multiReduction, Ideal.reduceAdd_def, addf_apply, mulf_apply, subf_apply, divf_apply, maximumf_apply, broadcast_apply, cmpf_apply, extui_apply, sitofp_apply, select_apply, Idealize.ShloMosaic.sqrt, Idealize.ShloMosaic.exp, Idealize.ShloMosaic.andi, cast_col, cast_norm, cast_img, cast_feat, red_rows, red_lanes, red_feat, Scalar.ofBits, Ideal.ofBits_def, Ideal.sqrt_def, Ideal.exp_def, Ideal.divf_def, Ideal.maximumf_def, Ideal.cmpf_def, Row.differ, Row.hinge, Row.len, Row.gate, Row.weight]

end Cert.KernelIdeal.Body

end
-- ==== Proof.Sample.lean ====
/-
  What the body leaves in the two result blocks, read at one sample: row p of the penalty block is the sample's penalty
  `Row.pen` of row p of the three input blocks (frame j of the image block flattened: position k at sublane row k / 128,
  lane k % 128), and row p of the weight block the sample's gated weight `Row.aw`.  The body's running sums
  (lanes, then rows) and its three additions onto zero are brought to the row functions by `Row.gap_rows`,
  `Row.moved_rows` and `Row.pen_steps`.
-/
import proofs.«181546_j43542378447385_2_alg».proof.Proof.Gen.KernelIdeal.Frame
import proofs.«181546_j43542378447385_2_alg».proof.Proof.Body

noncomputable section

namespace Cert.KernelIdeal.Sample

open Idealize.ShloMosaic Idealize.ShloMosaic.ValueIdx Cert.KernelIdeal Cert.KernelIdeal.Gen Cert.KernelIdeal.Layout Cert.KernelIdeal.Body Cert

variable [Cert.KernelIdeal.Facts]

theorem origin2 : (![0, 0] : Fin 2 → Nat) = fun _ => 0 := funext fun a => by fin_cases a <;> rfl

/-! ## The body's loads, by the names the frame gives their rectangles -/

theorem ld_r0 {Val : EltTy → Type} (X2 : S16x4x1.Idx → Val .f32) (p : Fin 16) (o o' : Fin 1) :
    View.ld X2 r0_0 (ix3 p o o') = X2 (ix3 p 0 0) := ld_norm X2 _ p o o'
theorem ld_r1 {Val : EltTy → Type} (X0 : S16x4x294x128.Idx → Val .f32) (p : Fin 16) (o : Fin 1) (s : Fin 294) (l : Fin 128) :
    View.ld X0 r0_1 (ix4 p o s l) = X0 (ix4 p 1 s l) := ld_img1 X0 _ p o s l
theorem ld_r2 {Val : EltTy → Type} (X0 : S16x4x294x128.Idx → Val .f32) (p : Fin 16) (o : Fin 1) (s : Fin 294) (l : Fin 128) :
    View.ld X0 r0_2 (ix4 p o s l) = X0 (ix4 p 0 s l) := ld_img0 X0 _ p o s l
theorem ld_r3 {Val : EltTy → Type} (X1 : S16x4x512.Idx → Val .f32) (p : Fin 16) (o : Fin 1) (k : Fin 512) :
    View.ld X1 r0_3 (ix3 p o k) = X1 (ix3 p 0 k) := ld_feat0 X1 _ p o k
theorem ld_r4 {Val : EltTy → Type} (X1 : S16x4x512.Idx → Val .f32) (p : Fin 16) (o : Fin 1) (k : Fin 512) :
    View.ld X1 r0_4 (ix3 p o k) = X1 (ix3 p 1 k) := ld_feat1 X1 _ p o k
theorem ld_r5 {Val : EltTy → Type} (X0 : S16x4x294x128.Idx → Val .f32) (p : Fin 16) (o : Fin 1) (s : Fin 294) (l : Fin 128) :
    View.ld X0 r0_5 (ix4 p o s l) = X0 (ix4 p 2 s l) := ld_img2 X0 _ p o s l
theorem ld_r6 {Val : EltTy → Type} (X1 : S16x4x512.Idx → Val .f32) (p : Fin 16) (o : Fin 1) (k : Fin 512) :
    View.ld X1 r0_6 (ix3 p o k) = X1 (ix3 p 2 k) := ld_feat2 X1 _ p o k
theorem ld_r7 {Val : EltTy → Type} (X0 : S16x4x294x128.Idx → Val .f32) (p : Fin 16) (o : Fin 1) (s : Fin 294) (l : Fin 128) :
    View.ld X0 r0_7 (ix4 p o s l) = X0 (ix4 p 3 s l) := ld_img3 X0 _ p o s l
theorem ld_r8 {Val : EltTy → Type} (X1 : S16x4x512.Idx → Val .f32) (p : Fin 16) (o : Fin 1) (k : Fin 512) :
    View.ld X1 r0_8 (ix3 p o k) = X1 (ix3 p 3 k) := ld_feat3 X1 _ p o k

/-- Frame j of row p of an image block, flattened. -/
def imgRow (X0 : Vec Ideal S16x4x294x128 .f32) (p : Fin 16) : Fin 4 → Fin 37632 → EReal :=
  fun j k => X0 (ix4 p j ⟨k.val / 128, by omega⟩ ⟨k.val % 128, by omega⟩)

/-- Feature frame j of row p of a feature block. -/
def featRow (X1 : Vec Ideal S16x4x512 .f32) (p : Fin 16) : Fin 4 → Fin 512 → EReal := fun j k => X1 (ix3 p j k)

/-- Row p of the penalty block the body leaves. -/
theorem out3_apply (X0 : Vec Ideal S16x4x294x128 .f32) (X1 : Vec Ideal S16x4x512 .f32) (X2 : Vec Ideal S16x4x1 .f32)
    (p : Fin 16) (q : Fin 1) :
    out0_3 (F := Ideal) X0 X1 X2 (ix2 p q) = Row.pen (imgRow X0 p) (featRow X1 p) (X2 (ix3 p 0 0)) := by
  unfold out0_3
  rw [View.canon_unit_zero origin2]
  simp only [pay19_apply, pay16_apply, pay8_apply, pay3_apply, pay4_apply, pay5_apply, pay6_apply, pay7_apply, pay9_apply,
    pay10_apply, pay11_apply, pay12_apply, pay13_apply, pay14_apply, pay15_apply, pay17_apply, pay18_apply,
    ld_r0 X2, ld_r1 X0, ld_r2 X0, ld_r3 X1, ld_r4 X1, ld_r5 X0, ld_r6 X1, ld_r7 X0, ld_r8 X1]
  rw [Row.gap_rows (fun s l => X0 (ix4 p 0 s l)) (fun s l => X0 (ix4 p 1 s l)),
    Row.gap_rows (fun s l => X0 (ix4 p 1 s l)) (fun s l => X0 (ix4 p 2 s l)),
    Row.gap_rows (fun s l => X0 (ix4 p 2 s l)) (fun s l => X0 (ix4 p 3 s l)),
    Row.moved_rows (fun s l => X0 (ix4 p 1 s l)) (fun s l => X0 (ix4 p 0 s l)),
    Row.moved_rows (fun s l => X0 (ix4 p 2 s l)) (fun s l => X0 (ix4 p 0 s l)),
    Row.moved_rows (fun s l => X0 (ix4 p 3 s l)) (fun s l => X0 (ix4 p 0 s l))]
  exact Row.pen_steps (imgRow X0 p) (featRow X1 p) (X2 (ix3 p 0 0))

/-- Row p of the weight block the body leaves. -/
theorem out4_apply (X0 : Vec Ideal S16x4x294x128 .f32) (X1 : Vec Ideal S16x4x512 .f32) (X2 : Vec Ideal S16x4x1 .f32)
    (p : Fin 16) (q : Fin 1) :
    out0_4 (F := Ideal) X0 X1 X2 (ix2 p q) = Row.aw (X2 (ix3 p 0 0)) := by
  unfold out0_4
  rw [View.canon_unit_zero origin2]
  simp only [pay1_apply, pay3_apply, pay4_apply, ld_r0 X2]
  rfl

end Cert.KernelIdeal.Sample

end
-- ==== Proof.Blocks.lean ====
/-
  From blocks to arrays.  Grid point t of sixteen works on samples 16 t … 16 t + 15: its image block is those samples'
  rows of the image array as the region finds it (the argument recast to [256, 4, 294, 128]: element (b, j, s, l) is
  position s · 128 + l of frame j of sample b), its feature and norm blocks those samples' frames of the arguments.
  So what point t writes back into each result array is the block, at rows 16 t … 16 t + 15, of one function of the
  whole arrays — the sample's penalty `Row.Pen`, the sample's gated weight `Row.Aw` —, the sixteen blocks cover the 256
  rows, and each result array ends holding that function.
-/
import proofs.«181546_j43542378447385_2_alg».proof.Proof.Gen.KernelIdeal.Frame
import proofs.«181546_j43542378447385_2_alg».proof.Proof.Sample
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Sample Cert

variable (m : (ℓ : Loc nD τ sig) → Buf (Elt Ideal) ℓ) (ρ : Dev nD → PrngReg)

/-- The three argument arrays as launched. -/
abbrev img (c : Dev nD) : S256x4x3x112x112.Idx → EReal := m ((c : Thread nD τ).loc main_arg0)
abbrev feat (c : Dev nD) : S256x4x512.Idx → EReal := m ((c : Thread nD τ).loc main_arg1)
abbrev nrm (c : Dev nD) : S256x4x1.Idx → EReal := m ((c : Thread nD τ).loc main_arg2)

/-- The image array the region finds is the argument recast to rows of 128 lanes. -/
theorem V_img (c : Dev nD) :
    (V m c main_v0 : S256x4x294x128.Idx → EReal)
      = shapeCast S256x4x294x128 (img m c) shapeCasts_S256x4x3x112x112_S256x4x294x128 := by
  show StableHlo.after hostOps0 (fun b => m (c, b)) (Proc.devRef .tc main_v0) = _
  after_results
  rfl

/-- The printed index maps over the grid: every window's block index is the point on the sample axis, zero elsewhere. -/
theorem block_index : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of point t's image block is sample 16 t + p of the image array. -/
theorem image_block (c : Dev nD) (t : Fin cfg0.N) (p : Fin 16) (j : Fin 4) (pos : Fin 37632) (b : Fin 256)
    (hb : b.val = 16 * t.val + p.val) :
    (iblk m c 0 t : Vec Ideal S16x4x294x128 .f32) (ix4 p j ⟨pos.val / 128, by omega⟩ ⟨pos.val % 128, by omega⟩)
      = Row.imgRows (img m c) b j pos := by
  obtain ⟨e0, e1, e2, e3, -⟩ := block_index t
  unfold iblk
  rw [View.read_apply]
  show V m c main_v0 _ = _
  rw [V_img]
  refine shapeCast_apply (img m c) _ _ _ ?_
  rw [Shape.rowMajor_val_five, Shape.rowMajor_val_four]
  show (((b.val * 4 + j.val) * 3 + pos.val / 12544) * 112 + pos.val / 112 % 112) * 112 + pos.val % 112
    = (((win0_0.index t 0 * 16 + 1 * p.val) * 4 + (win0_0.index t 1 * 4 + 1 * j.val)) * 294
        + (win0_0.index t 2 * 294 + 1 * (pos.val / 128))) * 128 + (win0_0.index t 3 * 128 + 1 * (pos.val % 128))
  rw [e0, e1, e2, e3]
  have hj : j.val < 4 := j.isLt
  omega

/-- Row p of point t's feature block is sample 16 t + p of the feature array. -/
theorem feature_block (c : Dev nD) (t : Fin cfg0.N) (p : Fin 16) (j : Fin 4) (k : Fin 512) (b : Fin 256)
    (hb : b.val = 16 * t.val + p.val) :
    (iblk m c 1 t : Vec Ideal S16x4x512 .f32) (ix3 p j k) = Row.featRows (feat m c) b j k := by
  obtain ⟨-, -, -, -, e0, e1, e2, -⟩ := block_index t
  unfold iblk
  rw [View.read_apply]
  show V m c main_arg1 _ = _
  rw [V_main_arg1]
  refine congrArg (feat m c) (funext fun a => Fin.ext ?_)
  match a with
  | ⟨0, _⟩ => show win0_1.index t 0 * 16 + 1 * p.val = b.val; rw [e0]; omega
  | ⟨1, _⟩ => show win0_1.index t 1 * 4 + 1 * j.val = j.val; rw [e1]; omega
  | ⟨2, _⟩ => show win0_1.index t 2 * 512 + 1 * k.val = k.val; rw [e2]; omega

/-- Row p of point t's norm block holds sample 16 t + p's first norm. -/
theorem norm_block (c : Dev nD) (t : Fin cfg0.N) (p : Fin 16) (b : Fin 256) (hb : b.val = 16 * t.val + p.val) :
    (iblk m c 2 t : Vec Ideal S16x4x1 .f32) (ix3 p 0 0) = Row.normOf (nrm m c) b := by
  obtain ⟨-, -, -, -, -, -, -, e0, e1, e2, -⟩ := block_index t
  unfold iblk
  rw [View.read_apply]
  show V m c main_arg2 _ = _
  rw [V_main_arg2]
  refine congrArg (nrm m c) (funext fun a => Fin.ext ?_)
  match a with
  | ⟨0, _⟩ => show win0_2.index t 0 * 16 + 1 * p.val = b.val; rw [e0]; omega
  | ⟨1, _⟩ => show win0_2.index t 1 * 4 + 1 * 0 = 0; rw [e1]
  | ⟨2, _⟩ => show win0_2.index t 2 * 1 + 1 * 0 = 0; rw [e2]

/-- What point t leaves in row p of the penalty block is sample 16 t + p's penalty. -/
theorem pen_block (c : Dev nD) (t : Fin cfg0.N) (p : Fin 16) (q : Fin 1) (b : Fin 256) (hb : b.val = 16 * t.val + p.val) :
    out0_3 (iblk m c 0 t) (iblk m c 1 t) (iblk m c 2 t) (ix2 p q) = Row.Pen (img m c) (feat m c) (nrm m c) b := by
  refine (out3_apply (iblk m c 0 t) (iblk m c 1 t) (iblk m c 2 t) p q).trans ?_
  unfold Row.Pen
  refine congr (congr (congrArg Row.pen ?_) ?_) ?_
  · funext j pos; exact image_block m c t p j pos b hb
  · funext j k; exact feature_block m c t p j k b hb
  · exact norm_block m c t p b hb

/-- What point t leaves in row p of the weight block is sample 16 t + p's gated weight. -/
theorem aw_block (c : Dev nD) (t : Fin cfg0.N) (p : Fin 16) (q : Fin 1) (b : Fin 256) (hb : b.val = 16 * t.val + p.val) :
    out0_4 (iblk m c 0 t) (iblk m c 1 t) (iblk m c 2 t) (ix2 p q) = Row.Aw (nrm m c) b := by
  refine (out4_apply (iblk m c 0 t) (iblk m c 1 t) (iblk m c 2 t) p q).trans ?_
  unfold Row.Aw
  exact congrArg Row.aw (norm_block m c t p b hb)

/-- The penalty array's contents: one penalty per sample. -/
abbrev penArr (c : Dev nD) : S256x1.Idx → EReal := fun i => Row.Pen (img m c) (feat m c) (nrm m c) (i 0)
/-- The weight array's contents: one gated weight per sample. -/
abbrev awArr (c : Dev nD) : S256x1.Idx → EReal := fun i => Row.Aw (nrm m c) (i 0)

theorem row_lt (t : Fin cfg0.N) (p : Fin 16) : 16 * t.val + p.val < 256 := by
  have hN : grid0.N = 16 := N_0
  have ht : t.val < grid0.N := t.isLt
  omega

/-- WHAT POINT t WRITES BACK into the penalty array is block t of the per-sample penalties. -/
theorem penalty_written (c : Dev nD) (t : Fin cfg0.N) :
    (dats m 0 c).flushed 3 t = ((cfg0.win 3).blk t).view.read (Elt Ideal) (penArr m c) := by
  obtain ⟨-, -, -, -, -, -, -, -, -, -, e0, e1, -⟩ := block_index t
  show (cfg0.win 3).cut (grid0.coords t) ((dats m 0 c).after 3 t) = _
  rw [after0_3]
  funext y
  obtain ⟨p, q, rfl⟩ : ∃ (p : Fin 16) (q : Fin 1), y = ix2 p q := ⟨y 0, y 1, eq_ix2 y⟩
  refine (pen_block m c t p q ⟨16 * t.val + p.val, row_lt t p⟩ rfl).trans ?_
  show Row.Pen (img m c) (feat m c) (nrm m c) _ = Row.Pen (img m c) (feat m c) (nrm m c) _
  refine congrArg (Row.Pen (img m c) (feat m c) (nrm m c)) (Fin.ext ?_)
  show 16 * t.val + p.val = win0_3.index t 0 * 16 + 1 * p.val
  rw [e0]; omega

/-- WHAT POINT t WRITES BACK into the weight array is block t of the per-sample gated weights. -/
theorem weight_written (c : Dev nD) (t : Fin cfg0.N) :
    (dats m 0 c).flushed 4 t = ((cfg0.win 4).blk t).view.read (Elt Ideal) (awArr m c) := by
  obtain ⟨-, -, -, -, -, -, -, -, -, -, -, -, e0, e1⟩ := block_index t
  show (cfg0.win 4).cut (grid0.coords t) ((dats m 0 c).after 4 t) = _
  rw [after0_4]
  funext y
  obtain ⟨p, q, rfl⟩ : ∃ (p : Fin 16) (q : Fin 1), y = ix2 p q := ⟨y 0, y 1, eq_ix2 y⟩
  refine (aw_block m c t p q ⟨16 * t.val + p.val, row_lt t p⟩ rfl).trans ?_
  show Row.Aw (nrm m c) _ = Row.Aw (nrm m c) _
  refine congrArg (Row.Aw (nrm m c)) (Fin.ext ?_)
  show 16 * t.val + p.val = win0_4.index t 0 * 16 + 1 * p.val
  rw [e0]; omega

/-- An index of the penalty array is in point t's block iff each coordinate is in the block's range. -/
theorem in_penalty_block (t : Fin cfg0.N) (i : S256x1.Idx) :
    i ∈ ((cfg0.win 3).blk t).view.set ↔ ∀ a : Fin 2, win0_3.index t a * S16x1.size a ≤ (i a).val ∧ (i a).val < win0_3.index t a * S16x1.size a + S16x1.size a := by
  show i ∈ ((View.whole main_v1_0).slice (win0_3.rect t)).set ↔ _
  rw [View.set_slice_whole, Rect.mem_set_unit]
  exact Iff.rfl

theorem in_weight_block (t : Fin cfg0.N) (i : S256x1.Idx) :
    i ∈ ((cfg0.win 4).blk t).view.set ↔ ∀ a : Fin 2, win0_4.index t a * S16x1.size a ≤ (i a).val ∧ (i a).val < win0_4.index t a * S16x1.size a + S16x1.size a := by
  show i ∈ ((View.whole main_v1_1).slice (win0_4.rect t)).set ↔ _
  rw [View.set_slice_whole, Rect.mem_set_unit]
  exact Iff.rfl

/-- The point whose block holds row r: r / 16. -/
def pointOf (i : S256x1.Idx) : Fin cfg0.N :=
  ⟨(i 0).val / 16, by
    have hN : grid0.N = 16 := N_0
    have h0 : (i 0).val < 256 := (i 0).isLt
    show (i 0).val / 16 < grid0.N
    omega⟩

/-- THE PENALTY ARRAY after the region: one penalty per sample. -/
theorem penalty_array (c : Dev nD) : (dats m 0 c).arrAt 3 cfg0.N = penArr m c :=
  (dats m 0 c).arrAt_eq_of_cover 3 (penArr m c) (fun t _ => penalty_written m c t) fun i =>
    ⟨pointOf i, flush0_3 _, by
      obtain ⟨-, -, -, -, -, -, -, -, -, -, e0, e1, -⟩ := block_index (pointOf i)
      rw [in_penalty_block]
      have h0 : (i 0).val < 256 := (i 0).isLt
      have h1 : (i 1).val < 1 := (i 1).isLt
      intro a
      match a with
      | ⟨0, _⟩ =>
        show win0_3.index (pointOf i) 0 * 16 ≤ (i 0).val ∧ (i 0).val < win0_3.index (pointOf i) 0 * 16 + 16
        rw [e0]; show (i 0).val / 16 * 16 ≤ (i 0).val ∧ (i 0).val < (i 0).val / 16 * 16 + 16; omega
      | ⟨1, _⟩ =>
        show win0_3.index (pointOf i) 1 * 1 ≤ (i 1).val ∧ (i 1).val < win0_3.index (pointOf i) 1 * 1 + 1
        rw [e1]; omega⟩

/-- THE WEIGHT ARRAY after the region: one gated weight per sample. -/
theorem weight_array (c : Dev nD) : (dats m 0 c).arrAt 4 cfg0.N = awArr m c :=
  (dats m 0 c).arrAt_eq_of_cover 4 (awArr m c) (fun t _ => weight_written m c t) fun i =>
    ⟨pointOf i, flush0_4 _, by
      obtain ⟨-, -, -, -, -, -, -, -, -, -, -, -, e0, e1⟩ := block_index (pointOf i)
      rw [in_weight_block]
      have h0 : (i 0).val < 256 := (i 0).isLt
      have h1 : (i 1).val < 1 := (i 1).isLt
      intro a
      match a with
      | ⟨0, _⟩ =>
        show win0_4.index (pointOf i) 0 * 16 ≤ (i 0).val ∧ (i 0).val < win0_4.index (pointOf i) 0 * 16 + 16
        rw [e0]; show (i 0).val / 16 * 16 ≤ (i 0).val ∧ (i 0).val < (i 0).val / 16 * 16 + 16; omega
      | ⟨1, _⟩ =>
        show win0_4.index (pointOf i) 1 * 1 ≤ (i 1).val ∧ (i 1).val < win0_4.index (pointOf i) 1 * 1 + 1
        rw [e1]; omega⟩

end Cert.KernelIdeal.Blocks

end
-- ==== Proof.Tail.lean ====
/-
  The kernel program's two results.  After the region the host code drops the unit axis of each result array and, of
  the penalties, takes the mean (`Row.meanOf`); so the first result is the mean of the per-sample penalties and the
  second the per-sample gated weights, and the run, read, says so with the arguments unchanged.
-/
import proofs.«181546_j43542378447385_2_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.KernelIdeal.Blocks Cert

variable (m : (ℓ : Loc nD τ sig) → Buf (Elt Ideal) ℓ) (ρ : Dev nD → PrngReg)

/-- A [256, 1] array with its unit axis dropped. -/
theorem drop_unit (v : S256x1.Idx → EReal) (h : S256x1.ShapeCasts S256) :
    shapeCast S256 v h = fun i : S256.Idx => v (ix2 (i 0) 0) := by
  funext i
  refine shapeCast_apply v h i _ ?_
  rw [Shape.rowMajor_val_two, Shape.rowMajor_val_one]
  show (i 0).val * 1 + 0 = (i 0).val
  omega

/-- The per-sample penalties and weights as [256] arrays. -/
abbrev pens (c : Dev nD) : S256.Idx → EReal := fun i => Row.Pen (img m c) (feat m c) (nrm m c) (i 0)
abbrev aws (c : Dev nD) : S256.Idx → EReal := fun i => Row.Aw (nrm m c) (i 0)

theorem mean_result (c : Dev nD) :
    Pipeline.afterTail₀ cfgs (dats m) 0 (V0 m) [hostOps1] c main_v6 = Row.meanOf reducesTo_S256_S_d0 h_S_ (pens m c) := by
  unfold Pipeline.afterTail₀
  show StableHlo.after hostOps1 _ (Proc.devRef .tc main_v6) = _
  after_results
  have e3 : Pipeline.withArrays (cfgs 0).spec c (V0 m c) (fun w => (dats m 0 c).arrAt w (cfgs 0).N) (Proc.tc.devRef main_v1_0)
      = penArr m c := (Pipeline.withArrays_arr spec0 launch0.win.arr_inj c _ _ 3).trans (penalty_array m c)
  show Row.meanOf reducesTo_S256_S_d0 h_S_ (shapeCast S256 (Pipeline.withArrays (cfgs 0).spec c (V0 m c)
      (fun w => (dats m 0 c).arrAt w (cfgs 0).N) (Proc.tc.devRef main_v1_0)) shapeCasts_S256x1_S256) = _
  rw [e3, drop_unit]

theorem weight_result (c : Dev nD) :
    Pipeline.afterTail₀ cfgs (dats m) 0 (V0 m) [hostOps1] c main_v3 = aws m c := by
  unfold Pipeline.afterTail₀
  show StableHlo.after hostOps1 _ (Proc.devRef .tc main_v3) = _
  after_results
  have e4 : Pipeline.withArrays (cfgs 0).spec c (V0 m c) (fun w => (dats m 0 c).arrAt w (cfgs 0).N) (Proc.tc.devRef main_v1_1)
      = awArr m c := (Pipeline.withArrays_arr spec0 launch0.win.arr_inj c _ _ 4).trans (weight_array m c)
  show shapeCast S256 (Pipeline.withArrays (cfgs 0).spec c (V0 m c)
      (fun w => (dats m 0 c).arrAt w (cfgs 0).N) (Proc.tc.devRef main_v1_1)) shapeCasts_S256x1_S256 = _
  rw [e4, drop_unit]

/-- The run, read: the mean of the per-sample penalties, the per-sample gated weights, the arguments unchanged. -/
theorem run : θ_run defs (onTc (τ := τ) (main (F := Ideal))) ⟨m, fun _ => 0, ρ⟩ fun r => ∀ c : Dev nD,
      r.2.mem ((c.tc : Thread nD τ).loc main_v6) = Row.meanOf reducesTo_S256_S_d0 h_S_ (pens m c)
      ∧ r.2.mem ((c.tc : Thread nD τ).loc main_v3) = aws m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
      ((h c).2 main_v6 (Pipeline.mem_restRefs_of main_v6 (by decide) (by decide))).trans (mean_result m c),
      ((h c).2 main_v3 (Pipeline.mem_restRefs_of main_v3 (by decide) (by decide))).trans (weight_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Tail

end
-- ==== Proof.RefRead.lean ====
/-
  The reference's two results as the row functions.  Its per-pair array [256, 3] holds at (b, k) the share `Row.pair` of
  frames k, k+1 of sample b: the gate and the weight are read off the first frame's norm; the image distance is the
  host's sum over the three trailing axes of a [256, 3, 3, 112, 112] array, re-indexed by the flat position
  (channel · 12544 + line · 112 + column); "differs from frame 0" is the host's fold of `or` over the same positions;
  the feature sums are sums over the last axis.  The per-sample sum over the three pairs is then `Row.Pen`, and the gated
  weight `Row.Aw`.
-/
import proofs.«181546_j43542378447385_2_alg».proof.Proof.Gen.ReferenceIdeal.Read
import proofs.«181546_j43542378447385_2_alg».proof.Proof.Row

noncomputable section

open scoped BigOperators

namespace Cert.ReferenceIdeal.RefValue

open Idealize.ShloMosaic Idealize.ShloMosaic.ValueIdx Cert.ReferenceIdeal Cert.ReferenceIdeal.Gen Cert.ReferenceIdeal.Read Cert

variable (x0 : (⟨S256x4x3x112x112, .f32⟩ : BufTy).Contents (Elt Ideal)) (x1 : (⟨S256x4x512, .f32⟩ : BufTy).Contents (Elt Ideal))
  (x2 : (⟨S256x4x1, .f32⟩ : BufTy).Contents (Elt Ideal))

/-! ## The gate and the weight -/

/-- The norm the reference slices out for sample b is the first frame's. -/
theorem norm_at (i : S256.Idx) (b : Fin 256) (hi : (i 0).val = b.val) :
    val_main_v1 (F := Ideal) x2 i = Row.normOf x2 b := by
  rw [val_main_v1_apply, val_main_v0_apply]
  exact congrArg x2 (funext fun a => Fin.ext (by
    match a with
    | ⟨0, _⟩ => show (i 0).val / 1 = b.val; omega
    | ⟨1, _⟩ => rfl
    | ⟨2, _⟩ => rfl))

theorem gate_row (i : S256.Idx) (b : Fin 256) (hi : (i 0).val = b.val) :
    val_main_v3 (F := Ideal) x2 i = Row.gate (Row.normOf x2 b) := by
  rw [val_main_v3_apply, norm_at x2 i b hi, val_main_v2_apply, val_main_cst_apply]
  rfl

theorem weight_row (i : S256.Idx) (b : Fin 256) (hi : (i 0).val = b.val) :
    val_main_v8 (F := Ideal) x2 i = Row.weight (Row.normOf x2 b) := by
  rw [val_main_v8_apply, val_main_v7_apply, val_main_cst_1_apply, val_main_v6_apply, val_main_v4_apply, norm_at x2 i b hi,
    val_main_v5_apply, val_main_cst_0_apply]
  rfl

theorem gate_at (b : Fin 256) (k : Fin 3) : val_main_v45 (F := Ideal) x2 (ix2 b k) = Row.gate (Row.normOf x2 b) := by
  rw [val_main_v45_apply, val_main_v44_apply]
  exact gate_row x2 _ b rfl

theorem weight_at (b : Fin 256) (k : Fin 3) : val_main_v42 (F := Ideal) x2 (ix2 b k) = Row.weight (Row.normOf x2 b) := by
  rw [val_main_v42_apply, val_main_v41_apply]
  exact weight_row x2 _ b rfl

/-- The second result at sample b. -/
theorem aw_at (b : Fin 256) : val_main_v49 (F := Ideal) x2 (ix1 b) = Row.Aw x2 b := by
  rw [val_main_v49_apply, gate_row x2 _ b rfl, weight_row x2 _ b rfl, val_main_call3_v1_apply, val_main_call3_v0_apply,
    val_main_cst_12_apply]
  rfl

/-! ## The feature frames -/

theorem feat_a (i : S256x3x512.Idx) (b : Fin 256) (k : Fin 3) (k' : Fin 512)
    (h0 : (i 0).val = b.val) (h1 : (i 1).val = k.val) (h2 : (i 2).val = k'.val) :
    val_main_v22 (F := Ideal) x1 i = Row.featRows x1 b k.castSucc k' := by
  rw [val_main_v22_apply]
  exact congrArg x1 (funext fun a => Fin.ext (by
    match a with
    | ⟨0, _⟩ => exact h0
    | ⟨1, _⟩ => exact h1
    | ⟨2, _⟩ => exact h2))

theorem feat_b (i : S256x3x512.Idx) (b : Fin 256) (k : Fin 3) (k' : Fin 512)
    (h0 : (i 0).val = b.val) (h1 : (i 1).val = k.val) (h2 : (i 2).val = k'.val) :
    val_main_v23 (F := Ideal) x1 i = Row.featRows x1 b k.succ k' := by
  rw [val_main_v23_apply]
  exact congrArg x1 (funext fun a => Fin.ext (by
    match a with
    | ⟨0, _⟩ => exact h0
    | ⟨1, _⟩ => show 1 + (i 1).val = k.val + 1; omega
    | ⟨2, _⟩ => exact h2))

theorem dot_at (b : Fin 256) (k : Fin 3) :
    val_main_v31 (F := Ideal) x1 (ix2 b k) = ∑ k' : Fin 512, Row.featRows x1 b k.castSucc k' * Row.featRows x1 b k.succ k' := by
  have h : ∀ k' : Fin 512, val_main_v30 (F := Ideal) x1 (idx_main_v31 (ix2 b k) k')
      = Row.featRows x1 b k.castSucc k' * Row.featRows x1 b k.succ k' := fun k' => by
    rw [val_main_v30_apply, feat_a x1 _ b k k' rfl rfl rfl, feat_b x1 _ b k k' rfl rfl rfl]; rfl
  rw [val_main_v31_apply, val_main_cst_6_apply, Finset.sum_congr rfl (fun k' _ => h k')]
  simp only [Ideal.ofBits_def, Ideal.ofBits_zero_f32, zero_add]

theorem len_a_at (b : Fin 256) (k : Fin 3) :
    val_main_v26 (F := Ideal) x1 (ix2 b k) = Row.len (Row.featRows x1 b k.castSucc) := by
  have h : ∀ k' : Fin 512, val_main_call0_v0 (F := Ideal) x1 (idx_main_call0_v1 (ix2 b k) k')
      = Row.featRows x1 b k.castSucc k' * Row.featRows x1 b k.castSucc k' := fun k' => by
    rw [val_main_call0_v0_apply, feat_a x1 _ b k k' rfl rfl rfl]; rfl
  rw [val_main_v26_apply, val_main_v24_apply, val_main_call0_v1_apply, val_main_call0_cst_apply,
    Finset.sum_congr rfl (fun k' _ => h k'), val_main_v25_apply, val_main_cst_4_apply]
  simp only [Ideal.ofBits_def, Ideal.ofBits_zero_f32, zero_add, Ideal.hostUnary_sqrt_def, Ideal.maximumf_def, Row.len]

theorem len_b_at (b : Fin 256) (k : Fin 3) :
    val_main_v29 (F := Ideal) x1 (ix2 b k) = Row.len (Row.featRows x1 b k.succ) := by
  have h : ∀ k' : Fin 512, val_main_call1_v0 (F := Ideal) x1 (idx_main_call1_v1 (ix2 b k) k')
      = Row.featRows x1 b k.succ k' * Row.featRows x1 b k.succ k' := fun k' => by
    rw [val_main_call1_v0_apply, feat_b x1 _ b k k' rfl rfl rfl]; rfl
  rw [val_main_v29_apply, val_main_v27_apply, val_main_call1_v1_apply, val_main_call1_cst_apply,
    Finset.sum_congr rfl (fun k' _ => h k'), val_main_v28_apply, val_main_cst_5_apply]
  simp only [Ideal.ofBits_def, Ideal.ofBits_zero_f32, zero_add, Ideal.hostUnary_sqrt_def, Ideal.maximumf_def, Row.len]

/-! ## The image frames: the three trailing axes as one flat position -/

/-- Position `pos` of pair k of sample b in a [256, 3, 3, 112, 112] array. -/
def at3 (b : Fin 256) (k : Fin 3) (pos : Fin 37632) : S256x3x3x112x112.Idx :=
  ix5 b k ⟨pos.val / 12544, by omega⟩ ⟨pos.val / 112 % 112, by omega⟩ ⟨pos.val % 112, by omega⟩

/-- The flat position of an index's three trailing coordinates. -/
def flat (i : S256x3x3x112x112.Idx) : Fin 37632 :=
  ⟨(i 2).val * 12544 + (i 3).val * 112 + (i 4).val, by
    have h2 : (i 2).val < 3 := (i 2).isLt
    have h3 : (i 3).val < 112 := (i 3).isLt
    have h4 : (i 4).val < 112 := (i 4).isLt
    omega⟩

theorem drop_val0 (i : S256x3x3x112x112.Idx) :
    ((reducesTo_S256x3x3x112x112_S256x3_d2_3_4.drop i) 0 : Nat) = (i 0).val :=
  Shape.ReducesTo.drop_apply_val_of_eq _ i 0 0
theorem drop_val1 (i : S256x3x3x112x112.Idx) :
    ((reducesTo_S256x3x3x112x112_S256x3_d2_3_4.drop i) 1 : Nat) = (i 1).val :=
  Shape.ReducesTo.drop_apply_val_of_eq _ i 1 1

theorem drop_at3 (b : Fin 256) (k : Fin 3) (pos : Fin 37632) :
    reducesTo_S256x3x3x112x112_S256x3_d2_3_4.drop (at3 b k pos) = ix2 b k := by
  funext a; refine Fin.ext ?_
  match a with
  | ⟨0, _⟩ => exact drop_val0 (at3 b k pos)
  | ⟨1, _⟩ => exact drop_val1 (at3 b k pos)

theorem flat_at3 (b : Fin 256) (k : Fin 3) (pos : Fin 37632) : flat (at3 b k pos) = pos := by
  refine Fin.ext ?_
  show pos.val / 12544 * 12544 + pos.val / 112 % 112 * 112 + pos.val % 112 = pos.val
  omega

theorem at3_flat (b : Fin 256) (k : Fin 3) (i : S256x3x3x112x112.Idx)
    (hi : reducesTo_S256x3x3x112x112_S256x3_d2_3_4.drop i = ix2 b k) : at3 b k (flat i) = i := by
  have e0 : (i 0).val = b.val := (drop_val0 i).symm.trans (congrArg (fun z : S256x3.Idx => (z 0).val) hi)
  have e1 : (i 1).val = k.val := (drop_val1 i).symm.trans (congrArg (fun z : S256x3.Idx => (z 1).val) hi)
  have h2 : (i 2).val < 3 := (i 2).isLt
  have h3 : (i 3).val < 112 := (i 3).isLt
  have h4 : (i 4).val < 112 := (i 4).isLt
  funext a; refine Fin.ext ?_
  match a with
  | ⟨0, _⟩ => exact e0.symm
  | ⟨1, _⟩ => exact e1.symm
  | ⟨2, _⟩ => show ((i 2).val * 12544 + (i 3).val * 112 + (i 4).val) / 12544 = (i 2).val; omega
  | ⟨3, _⟩ => show ((i 2).val * 12544 + (i 3).val * 112 + (i 4).val) / 112 % 112 = (i 3).val; omega
  | ⟨4, _⟩ => show ((i 2).val * 12544 + (i 3).val * 112 + (i 4).val) % 112 = (i 4).val; omega

/-- The host's sum over the three trailing axes, at (b, k): the sum over the flat positions. -/
theorem sum_frame {M : Type} [AddCommMonoid M] (y : S256x3x3x112x112.Idx → M) (b : Fin 256) (k : Fin 3) :
    ∑ i ∈ Finset.univ.filter (fun i => reducesTo_S256x3x3x112x112_S256x3_d2_3_4.drop i = ix2 b k), y i
      = ∑ pos : Fin 37632, y (at3 b k pos) := by
  symm
  refine Finset.sum_nbij' (at3 b k) flat ?_ ?_ ?_ ?_ ?_
  · intro pos _; exact Finset.mem_filter.2 ⟨Finset.mem_univ _, drop_at3 b k pos⟩
  · intro i _; exact Finset.mem_univ _
  · intro pos _; exact flat_at3 b k pos
  · intro i hi; exact at3_flat b k i (Finset.mem_filter.1 hi).2
  · intro pos _; rfl

/-- Frame k+1 of sample b at a position, as the reference slices it. -/
theorem img_next (b : Fin 256) (k : Fin 3) (pos : Fin 37632) :
    x0 (idx_main_v9 (at3 b k pos)) = Row.imgRows x0 b k.succ pos :=
  congrArg x0 (funext fun a => Fin.ext (by
    match a with
    | ⟨0, _⟩ => rfl
    | ⟨1, _⟩ => show 1 + k.val = k.val + 1; omega
    | ⟨2, _⟩ => rfl
    | ⟨3, _⟩ => rfl
    | ⟨4, _⟩ => rfl))

/-- Frame k of sample b at a position. -/
theorem img_this (b : Fin 256) (k : Fin 3) (pos : Fin 37632) :
    x0 (idx_main_v10 (at3 b k pos)) = Row.imgRows x0 b k.castSucc pos :=
  congrArg x0 (funext fun a => Fin.ext (by
    match a with
    | ⟨0, _⟩ => rfl
    | ⟨1, _⟩ => rfl
    | ⟨2, _⟩ => rfl
    | ⟨3, _⟩ => rfl
    | ⟨4, _⟩ => rfl))

/-- Frame 0 of sample b at a position, as the reference broadcasts it against every pair. -/
theorem img_first (b : Fin 256) (k : Fin 3) (pos : Fin 37632) :
    x0 (idx_main_v18 (idx_main_v19 (at3 b k pos))) = Row.imgRows x0 b 0 pos :=
  congrArg x0 (funext fun a => Fin.ext (by
    match a with
    | ⟨0, _⟩ => rfl
    | ⟨1, _⟩ => rfl
    | ⟨2, _⟩ => rfl
    | ⟨3, _⟩ => rfl
    | ⟨4, _⟩ => rfl))

/-- The image distance of pair k of sample b. -/
theorem gap_at (b : Fin 256) (k : Fin 3) :
    val_main_v16 (F := Ideal) x0 (ix2 b k) = Row.gap (Row.imgRows x0 b k.castSucc) (Row.imgRows x0 b k.succ) := by
  have h : ∀ pos : Fin 37632, val_main_v12 (F := Ideal) x0 (at3 b k pos)
      = (Row.imgRows x0 b k.succ pos - Row.imgRows x0 b k.castSucc pos) * (Row.imgRows x0 b k.succ pos - Row.imgRows x0 b k.castSucc pos) := fun pos => by
    rw [val_main_v12_apply, val_main_v11_apply, val_main_v9_apply, val_main_v10_apply, img_next x0 b k pos, img_this x0 b k pos]; rfl
  have h13 : val_main_v13 (F := Ideal) x0 (ix2 b k)
      = Ideal.ofBits .f32 0x00000000#32 + ∑ pos : Fin 37632, val_main_v12 (F := Ideal) x0 (at3 b k pos) := by
    unfold val_main_v13
    simp only [Host.reduceAdd, Ideal.hostReduceAdd_def]
    unfold Ideal.hostReduceAdd
    rw [sum_frame (val_main_v12 (F := Ideal) x0) b k]
    rfl
  rw [val_main_v16_apply, val_main_v14_apply, h13, Finset.sum_congr rfl (fun pos _ => h pos), val_main_v15_apply, val_main_cst_3_apply]
  simp only [Ideal.ofBits_def, Ideal.ofBits_zero_f32, zero_add, Ideal.hostUnary_sqrt_def, Ideal.addf_def, Row.gap]

/-- "Frame k+1 differs from frame 0 somewhere", as the reference folds it. -/
theorem moved_at (b : Fin 256) (k : Fin 3) :
    val_main_v21 (F := Ideal) x0 (ix2 b k) = Row.moved (Row.imgRows x0 b k.succ) (Row.imgRows x0 b 0) := by
  have hbit : ∀ i : S256x3x3x112x112.Idx, val_main_v20 (F := Ideal) x0 i = 1#1 ↔
      x0 (idx_main_v17 i) ≠ x0 (idx_main_v18 (idx_main_v19 i)) := fun i => by
    rw [val_main_v20_apply, val_main_v17_apply, val_main_v19_apply, val_main_v18_apply, Ideal.cmpf_def]
    by_cases h : x0 (idx_main_v17 i) = x0 (idx_main_v18 (idx_main_v19 i)) <;> simp [Ideal.cmp, h]
  have hone : val_main_v21 (F := Ideal) x0 (ix2 b k) = 1#1 ↔
      ∃ pos : Fin 37632, Row.imgRows x0 b k.succ pos ≠ Row.imgRows x0 b 0 pos := by
    unfold val_main_v21
    rw [Host.reduce_eq_foldl, Row.foldl_ori_eq_one]
    constructor
    · rintro (h | ⟨i, hi, h1⟩)
      · exact absurd h (by rw [val_main_c_apply]; decide)
      · have hd : reducesTo_S256x3x3x112x112_S256x3_d2_3_4.drop i = ix2 b k := by
          simpa using (List.mem_filter.1 hi).2
        refine ⟨flat i, ?_⟩
        have := (hbit i).1 h1
        rw [← at3_flat b k i hd] at this
        rw [← img_first x0 b k (flat i)]
        rw [show Row.imgRows x0 b k.succ (flat i) = x0 (idx_main_v17 (at3 b k (flat i))) from (img_next x0 b k (flat i)).symm]
        exact this
    · rintro ⟨pos, hpos⟩
      refine Or.inr ⟨at3 b k pos, ?_, (hbit _).2 ?_⟩
      · rw [List.mem_filter]
        exact ⟨List.mem_map.2 ⟨S256x3x3x112x112.rowMajor (at3 b k pos), List.mem_finRange _, Equiv.symm_apply_apply _ _⟩,
          by simp [drop_at3 b k pos]⟩
      · rw [img_first x0 b k pos]
        rw [show x0 (idx_main_v17 (at3 b k pos)) = Row.imgRows x0 b k.succ pos from img_next x0 b k pos]
        exact hpos
  unfold Row.moved
  by_cases h : ∃ pos : Fin 37632, Row.imgRows x0 b k.succ pos ≠ Row.imgRows x0 b 0 pos
  · rw [if_pos h]; exact hone.2 h
  · rw [if_neg h]
    rcases BitVec.eq_zero_or_eq_one (val_main_v21 (F := Ideal) x0 (ix2 b k)) with h0 | h1
    · exact h0
    · exact absurd (hone.1 h1) h

/-! ## The pair, the penalty -/

theorem pair_at (b : Fin 256) (k : Fin 3) :
    val_main_v47 (F := Ideal) x0 x1 x2 (ix2 b k)
      = Row.pair (Row.imgRows x0 b) (Row.featRows x1 b) (Row.normOf x2 b) k.castSucc k.succ := by
  rw [val_main_v47_apply, val_main_v46_apply, gate_at, moved_at, val_main_v43_apply, val_main_v40_apply, val_main_v38_apply,
    val_main_v36_apply, val_main_v35_apply, val_main_v34_apply, val_main_cst_7_apply, val_main_v33_apply, dot_at,
    val_main_v32_apply, len_a_at, len_b_at, gap_at, val_main_v37_apply, val_main_cst_8_apply, val_main_v39_apply,
    val_main_cst_9_apply, weight_at, val_main_call2_v1_apply, val_main_call2_v0_apply, val_main_cst_10_apply]
  simp only [Ideal.ofBits_def, Ideal.mulf_def, Ideal.maximumf_def, Ideal.subf_def, Ideal.hostDivf_def, Row.pair, Row.hinge]

/-- The per-sample penalty the reference sums over the samples. -/
theorem pen_at (b : Fin 256) : val_main_v48 (F := Ideal) x0 x1 x2 (ix1 b) = Row.Pen x0 x1 x2 b := by
  have h : ∀ k : Fin 3, val_main_v47 (F := Ideal) x0 x1 x2 (idx_main_v48 (ix1 b) k)
      = Row.pair (Row.imgRows x0 b) (Row.featRows x1 b) (Row.normOf x2 b) k.castSucc k.succ := fun k => by
    rw [show idx_main_v48 (ix1 b) k = ix2 b k from funext fun a => Fin.ext (by
      match a with
      | ⟨0, _⟩ => rfl
      | ⟨1, _⟩ => rfl)]
    exact pair_at x0 x1 x2 b k
  rw [val_main_v48_apply, val_main_cst_11_apply, Finset.sum_congr rfl (fun k _ => h k)]
  rfl

theorem pen_eq : val_main_v48 (F := Ideal) x0 x1 x2 = fun i => Row.Pen x0 x1 x2 (i 0) := by
  funext i
  obtain ⟨b, rfl⟩ : ∃ b : Fin 256, i = ix1 b := ⟨i 0, eq_ix1 i⟩
  exact pen_at x0 x1 x2 b

/-- The first result: the mean of the per-sample penalties. -/
theorem mean_eq : val_main_v52 (F := Ideal) x0 x1 x2
    = Row.meanOf reducesTo_S256_S_d0 h_S_ (fun i => Row.Pen x0 x1 x2 (i 0)) := by
  rw [← pen_eq]
  rfl

theorem aw_eq : val_main_v49 (F := Ideal) x2 = fun i => Row.Aw x2 (i 0) := by
  funext i
  obtain ⟨b, rfl⟩ : ∃ b : Fin 256, i = ix1 b := ⟨i 0, eq_ix1 i⟩
  exact aw_at x2 b

end Cert.ReferenceIdeal.RefValue

end
-- ==== Proof.lean ====
/-
  The kernel and its reference compute, for 256 samples of four image frames, four feature frames and a feature norm,
  the mean over the samples of a penalty and, per sample, a gated weight.  For each pair of consecutive frames the
  penalty adds, when the first norm passes the gate and the later frame differs somewhere from frame 0, the hinge
  max ((1 - cos) / (|a' - a| + tiny) - 0, 0) · w  of the pair's feature cosine and image distance, w = 1 / (exp f + tiny).

  The two programs differ in how they add.  The kernel walks the samples in sixteen blocks of sixteen; it views each
  image frame as 294 rows of 128 lanes and sums lanes first, then rows; it decides "differs somewhere" by counting the
  differing positions and asking whether the count is above zero; it adds the three pairs' shares one after the other
  onto zero.  The reference sums each frame over its three axes at once, folds `or` over the positions, and sums the
  three shares with one reduction.  On the extended reals addition is commutative and associative, so the sums agree
  whatever their grouping (`Row.sum_rows_lanes`, `RefValue.sum_frame`); a sum of zero-or-one indicators is positive
  exactly when some indicator is one (`Row.sum_differ_pos`), which is what the fold of `or` says (`Row.foldl_ori_eq_one`).
  No law here needs a finite input, so the precondition is never opened.

  Both sides are brought to the same row functions (`Row.Pen`, `Row.Aw`): the kernel through the elements of what its
  body stores (Body, Sample), the blocks its grid points write back (Blocks) and the host code after the region (Tail);
  the reference through its operations read at an index (RefRead).  The three frame claims are the generated frames and
  the reference's generated run; the idealization rewrote nothing.
-/
import proofs.«181546_j43542378447385_2_alg».proof.Defs
import proofs.«181546_j43542378447385_2_alg».proof.Proof.Gen.Kernel
import proofs.«181546_j43542378447385_2_alg».proof.Proof.Gen.Kernel.Skeleton
import proofs.«181546_j43542378447385_2_alg».proof.Proof.Gen.Kernel.Launch
import proofs.«181546_j43542378447385_2_alg».proof.Proof.Gen.Kernel.Points
import proofs.«181546_j43542378447385_2_alg».proof.Proof.Gen.Kernel.Frame
import proofs.«181546_j43542378447385_2_alg».proof.Proof.Gen.KernelIdeal
import proofs.«181546_j43542378447385_2_alg».proof.Proof.Gen.KernelIdeal.Skeleton
import proofs.«181546_j43542378447385_2_alg».proof.Proof.Gen.KernelIdeal.Launch
import proofs.«181546_j43542378447385_2_alg».proof.Proof.Gen.KernelIdeal.Points
import proofs.«181546_j43542378447385_2_alg».proof.Proof.Gen.KernelIdeal.Frame
import proofs.«181546_j43542378447385_2_alg».proof.Proof.Gen.ReferenceIdeal
import proofs.«181546_j43542378447385_2_alg».proof.Proof.Gen.Pre_finite_inputs
import proofs.«181546_j43542378447385_2_alg».proof.Proof.Gen.ReferenceIdeal.Run
import proofs.«181546_j43542378447385_2_alg».proof.Proof.Gen.ReferenceIdeal.Read
import proofs.«181546_j43542378447385_2_alg».proof.Proof.Tail
import proofs.«181546_j43542378447385_2_alg».proof.Proof.RefRead
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run, the results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- The idealization rewrote nothing. -/
theorem preserves : Cert.preserves_Kernel_KernelIdeal := trivial

/-- From agreeing arguments both programs end with the mean of the per-sample penalties and the per-sample gated
    weights. -/
theorem algebraic : Cert.algebraic_KernelIdeal_ReferenceIdeal := by
  intro m ρ m' ρ' _ hagree
  refine ⟨fun c => Row.meanOf Cert.KernelIdeal.Gen.reducesTo_S256_S_d0 Cert.KernelIdeal.Gen.h_S_ (Cert.KernelIdeal.Tail.pens m c),
    fun c => Cert.KernelIdeal.Tail.aws m c, Cert.KernelIdeal.Tail.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v52_eq, (hagree c).1, (hagree c).2.1, (hagree c).2.2,
      Cert.ReferenceIdeal.RefValue.mean_eq]
  · rw [(h c).2.1, Cert.ReferenceIdeal.Read.val_main_v49_eq, (hagree c).2.2, Cert.ReferenceIdeal.RefValue.aw_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
